-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S256x128 .f32) (main_arg7 : FVec F S128 .f32) (main_arg8 : FVec F S128x128 .f32) (main_arg9 : FVec F S128 .f32) (main_arg10 : FVec F S128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x600000 32) (main_arg2 : FVec F S256x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : FVec F S128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S6000x128 : Shape := ⟨2, ![6000, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 58
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S100000x128, .bf16⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .bf16⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .bf16⟩
  | .hbm, ⟨35, _⟩ => ⟨S128x128, .f32⟩
  | .hbm, ⟨36, _⟩ => ⟨S128x128, .bf16⟩
  | .hbm, ⟨37, _⟩ => ⟨S128x128, .f32⟩
  | .hbm, ⟨38, _⟩ => ⟨S128x128, .bf16⟩
  | .hbm, ⟨39, _⟩ => ⟨S128x128, .bf16⟩
  | .hbm, ⟨40, _⟩ => ⟨S1x128, .f32⟩
  | .hbm, ⟨41, _⟩ => ⟨S1x128, .f32⟩
  | .hbm, ⟨42, _⟩ => ⟨S600000x128, .bf16⟩
  | .hbm, ⟨43, _⟩ => ⟨S600000x128, .f32⟩
  | .hbm, ⟨44, _⟩ => ⟨S_, .f32⟩
  | .hbm, ⟨45, _⟩ => ⟨S100000x128, .f32⟩
  | .hbm, ⟨46, _⟩ => ⟨S600000x1, .i32⟩
  | .hbm, ⟨47, _⟩ => ⟨S100000x128, .f32⟩
  | .hbm, ⟨48, _⟩ => ⟨S128x128, .f32⟩
  | .hbm, ⟨49, _⟩ => ⟨S128x128, .bf16⟩
  | .hbm, ⟨50, _⟩ => ⟨S128x128, .f32⟩
  | .hbm, ⟨51, _⟩ => ⟨S128x128, .bf16⟩
  | .hbm, ⟨52, _⟩ => ⟨S128x128, .bf16⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S100000x128, .f32⟩
  | .local _ .vmem, ⟨0, _⟩ => ⟨S6000x128, .bf16⟩
  | .local _ .vmem, ⟨1, _⟩ => ⟨S6000x128, .bf16⟩
  | .local _ .vmem, ⟨2, _⟩ => ⟨S6000x128, .bf16⟩
  | .local _ .vmem, ⟨3, _⟩ => ⟨S6000x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S6000x128, .bf16⟩
  | .local _ .vmem, ⟨10, _⟩ => ⟨S6000x128, .bf16⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .bf16⟩
  | .local _ .vmem, ⟨16, _⟩ => ⟨S128x128, .bf16⟩
  | .local _ .vmem, ⟨17, _⟩ => ⟨S1x128, .f32⟩
  | .local _ .vmem, ⟨18, _⟩ => ⟨S128x128, .bf16⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  slices_S256x128_S128x128_0_0 : S256x128.Slices ![0, 0] S128x128
  slices_S256x128_S128x128_128_0 : S256x128.Slices ![128, 0] S128x128
  shapeCasts_S128_S1x128 : S128.ShapeCasts S1x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  packedbf16_S6000x128_S6000x128_0_0 : (Rect.unit (s := S6000x128) ![0, 0] S6000x128.size inb_S6000x128_S6000x128_0_0).PackedRows (EltTy.packing .bf16)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S100000x128_S600000x1_S600000x128_1_0_n_n_0_1_1128_wf : GatherDims.WF S100000x128 S600000x1 S600000x128 [1] [0] [] [0] [] 1 ![1, 128]
  dot_S6000x128_S128x128_S6000x128_1_0_0_1_n_n_wf : DotDims.WF S6000x128 S128x128 S6000x128 [1] [0] [0] [1] [] []
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .bf16 = 32 ∨ (Rect.block (s := S600000x128) S6000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .bf16 = 32 ∨ (Rect.block (s := S600000x128) S6000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6000x128.size a ≤ S600000x128.size a
  hwx0_7 : ∀ i : grid0.Coords, EltTy.bits .bf16 = 32 ∨ (Rect.block (s := S600000x128) S6000x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S6000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S1x128 : Shape := ⟨2, ![1, 128]⟩
abbrev S100000x256 : Shape := ⟨2, ![100000, 256]⟩
abbrev S100000 : Shape := ⟨1, ![100000]⟩
abbrev S100000x1 : Shape := ⟨2, ![100000, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S600000x256, .f32⟩
  | .hbm, ⟨35, _⟩ => ⟨S600000x128, .f32⟩
  | .hbm, ⟨36, _⟩ => ⟨S1x128, .f32⟩
  | .hbm, ⟨37, _⟩ => ⟨S600000x128, .f32⟩
  | .hbm, ⟨38, _⟩ => ⟨S600000x128, .f32⟩
  | .hbm, ⟨39, _⟩ => ⟨S_, .f32⟩
  | .hbm, ⟨40, _⟩ => ⟨S600000x128, .f32⟩
  | .hbm, ⟨41, _⟩ => ⟨S600000x128, .f32⟩
  | .hbm, ⟨42, _⟩ => ⟨S600000x128, .f32⟩
  | .hbm, ⟨43, _⟩ => ⟨S1x128, .f32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S100000x128, .f32⟩
  | .hbm, ⟨48, _⟩ => ⟨S600000x1, .i32⟩
  | .hbm, ⟨49, _⟩ => ⟨S100000x128, .f32⟩
  | .hbm, ⟨50, _⟩ => ⟨S100000x256, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000, .f32⟩
  | .hbm, ⟨64, _⟩ => ⟨S100000x1, .f32⟩
  | .hbm, ⟨65, _⟩ => ⟨S_, .f32⟩
  | .hbm, ⟨66, _⟩ => ⟨S100000x1, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000, .f32⟩
  | .hbm, ⟨73, _⟩ => ⟨S100000x1, .f32⟩
  | .hbm, ⟨74, _⟩ => ⟨S_, .f32⟩
  | .hbm, ⟨75, _⟩ => ⟨S100000x1, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x1, .f32⟩
  | .hbm, ⟨81, _⟩ => ⟨S100000x1, .f32⟩
  | .hbm, ⟨82, _⟩ => ⟨S100000x1, .f32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_3 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_7 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  dot_S600000x256_S256x128_S600000x128_1_0_0_1_n_n_wf : DotDims.WF S600000x256 S256x128 S600000x128 [1] [0] [0] [1] [] []
  dot_S600000x128_S128x128_S600000x128_1_0_0_1_n_n_wf : DotDims.WF S600000x128 S128x128 S600000x128 [1] [0] [0] [1] [] []
  scatter_S100000x128_S600000x1_S600000x128_1_0_0_1_wf : ScatterDims.WF S100000x128 S600000x1 S600000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The run of the two-call program with its RESULT named.

  The program is four stretches: host operations, the message call, host operations, the update call. The buffer
  contents at each boundary are a fold from the launch memory: `W1` after the first host stretch, `W2` with the message
  call's arrays at what its write-backs leave, `W3` after the second host stretch, `W4` with the update call's arrays at
  what its write-backs leave. Every weakly fair execution terminates without a fault in a state whose unscoped buffers
  hold `W4`; read at the result array and at the twelve argument arrays this says: the result ends at `W4` of its buffer,
  and the arguments end as launched (no stretch writes one).
-/
import proofs.«145476_j76373108457772_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- From any launch memory with zero counters every weakly fair execution of the program terminates, nothing faulting,
    with the result array at the last boundary's contents and every argument array as launched. -/
theorem run_value : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunValue

end
-- ==== Proof.HostValues.lean ====
/-
  What the host stretches of the two-call program leave in the buffers the two calls read, at the ideal values.

  Before the message call: the two gathered row arrays are the reference's own gathers of the node features (the bf16
  copy of the features is the features: a change of format is the identity), the two halves of the first weight are
  its rows 0..127 and 128..255, the second weight is itself, a bias vector laid as a [1,128] row is itself.
  Before the update call the same holds of the update perceptron's parameters, of the scale and of the shift; the node
  features are untouched; and the aggregate is the scatter-add into zeros, along the destination indices, of the
  message array the message call left.
-/
import proofs.«145476_j76373108457772_2_alg».proof.Proof.Gen.KernelIdeal.Frame
import proofs.«145476_j76373108457772_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostValues

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ) (ρ : Dev nD → PrngReg) (c : Dev nD)

/-! ## Before the message call -/

/-- The rows `x[row]` the message call reads are the reference's gather of the node features. -/
theorem V1_v11 :
    (V1 m ρ c main_v11 : S600000x128.Idx → EReal)
      = Cert.ReferenceIdeal.Read.val_main_v10 (F := Ideal) (m ((c : Thread nD τ).loc main_arg0)) (m ((c : Thread nD τ).loc main_arg1)) := by
  show StableHlo.after hostOps0 (W0 m ρ c) (Proc.devRef .tc main_v11) = _
  after_results
  rfl

set_option maxHeartbeats 4000000 in
/-- The rows `x[col]` likewise. -/
theorem V1_v18 :
    (V1 m ρ c main_v18 : S600000x128.Idx → EReal)
      = Cert.ReferenceIdeal.Read.val_main_v17 (F := Ideal) (m ((c : Thread nD τ).loc main_arg0)) (m ((c : Thread nD τ).loc main_arg1)) := by
  show StableHlo.after hostOps0 (W0 m ρ c) (Proc.devRef .tc main_v18) = _
  after_results
  rfl

/-- The upper half of the message perceptron's first weight: its rows 0..127. -/
theorem V1_v20_apply (k' k : Fin 128) :
    (V1 m ρ c main_v20 : S128x128.Idx → EReal) (ix2 k' k) = (m ((c : Thread nD τ).loc main_arg2)) (ix2 (⟨k'.val, by omega⟩ : Fin 256) k) := by
  show StableHlo.after hostOps0 (W0 m ρ c) (Proc.devRef .tc main_v20) (ix2 k' k) = _
  after_results
  exact slice2_axis0_apply 0 _ slices_S256x128_S128x128_0_0 k' k ⟨k'.val, by omega⟩ (by show k'.val = 0 + k'.val; omega)

/-- The lower half: its rows 128..255. -/
theorem V1_v22_apply (k' k : Fin 128) :
    (V1 m ρ c main_v22 : S128x128.Idx → EReal) (ix2 k' k) = (m ((c : Thread nD τ).loc main_arg2)) (ix2 (⟨128 + k'.val, by omega⟩ : Fin 256) k) := by
  show StableHlo.after hostOps0 (W0 m ρ c) (Proc.devRef .tc main_v22) (ix2 k' k) = _
  after_results
  exact slice2_axis0_apply 128 _ slices_S256x128_S128x128_128_0 k' k ⟨128 + k'.val, by omega⟩ rfl

/-- The message perceptron's second weight. -/
theorem V1_v23 : (V1 m ρ c main_v23 : S128x128.Idx → EReal) = (m ((c : Thread nD τ).loc main_arg4)) := by
  show StableHlo.after hostOps0 (W0 m ρ c) (Proc.devRef .tc main_v23) = _
  after_results
  rfl

/-- The first bias, laid as a row. -/
theorem V1_v24_apply (k : Fin 128) :
    (V1 m ρ c main_v24 : S1x128.Idx → EReal) (ix2 (0 : Fin 1) k) = (m ((c : Thread nD τ).loc main_arg3)) (ix1 k) := by
  show StableHlo.after hostOps0 (W0 m ρ c) (Proc.devRef .tc main_v24) (ix2 (0 : Fin 1) k) = _
  after_results
  exact shapeCast_a_1a_apply _ shapeCasts_S128_S1x128 0 k

/-- The second bias, laid as a row. -/
theorem V1_v25_apply (k : Fin 128) :
    (V1 m ρ c main_v25 : S1x128.Idx → EReal) (ix2 (0 : Fin 1) k) = (m ((c : Thread nD τ).loc main_arg5)) (ix1 k) := by
  show StableHlo.after hostOps0 (W0 m ρ c) (Proc.devRef .tc main_v25) (ix2 (0 : Fin 1) k) = _
  after_results
  exact shapeCast_a_1a_apply _ shapeCasts_S128_S1x128 0 k

/-! ## After the message call: what it did not write is as before it -/

/-- No stretch up to the update call writes this argument. -/
theorem W2_main_arg0 : W2 m ρ c (Proc.devRef .tc main_arg0) = (m ((c : Thread nD τ).loc main_arg0)) := by
  refine (W2_of_ne m ρ c main_arg0 (by decide)).trans ?_
  show StableHlo.after hostOps0 (W0 m ρ c) (Proc.devRef .tc main_arg0) = _
  after_results

/-- No stretch up to the update call writes this argument. -/
theorem W2_main_arg6 : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results

/-- No stretch up to the update call writes this argument. -/
theorem W2_main_arg7 : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results

/-- No stretch up to the update call writes this argument. -/
theorem W2_main_arg8 : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results

/-- No stretch up to the update call writes this argument. -/
theorem W2_main_arg9 : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results

/-- No stretch up to the update call writes this argument. -/
theorem W2_main_arg10 : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results

/-- No stretch up to the update call writes this argument. -/
theorem W2_main_arg11 : W2 m ρ c (Proc.devRef .tc main_arg11) = (m ((c : Thread nD τ).loc main_arg11)) := by
  refine (W2_of_ne m ρ c main_arg11 (by decide)).trans ?_
  show StableHlo.after hostOps0 (W0 m ρ c) (Proc.devRef .tc main_arg11) = _
  after_results

/-- The destination indices are the reference's second row of the edge list. -/
theorem W2_main_v3 :
    (W2 m ρ c (Proc.devRef .tc main_v3) : S600000.Idx → BitVec 32) = Cert.ReferenceIdeal.Read.val_main_v3 (F := Ideal) (m ((c : Thread nD τ).loc main_arg1)) := by
  refine (W2_of_ne m ρ c main_v3 (by decide)).trans ?_
  show StableHlo.after hostOps0 (W0 m ρ c) (Proc.devRef .tc main_v3) = _
  after_results
  rfl

/-- The message array is what the message call's write-backs leave. -/
theorem W2_main_v26 : W2 m ρ c (Proc.devRef .tc main_v26) = (dat0 (V1 m ρ) c).arrAt 7 cfg0.N :=
  W2_arr m ρ c 7

/-! ## Before the update call -/

/-- The node features. -/
theorem V3_arg0 : (V3 m ρ c main_arg0 : S100000x128.Idx → EReal) = (m ((c : Thread nD τ).loc main_arg0)) := by
  show StableHlo.after hostOps1 (W2 m ρ c) (Proc.devRef .tc main_arg0) = _
  after_results
  exact W2_main_arg0 m ρ c

set_option maxHeartbeats 4000000 in
/-- The aggregate: the scatter-add into zeros, along the destination indices, of the message array (whatever
    function `Y` that array is). -/
theorem V3_v30 (Y : (⟨Cert.ReferenceIdeal.S600000x128, .f32⟩ : BufTy).Contents (Elt Ideal))
    (hY : ((dat0 (V1 m ρ) c).arrAt 7 cfg0.N : S600000x128.Idx → EReal) = Y) :
    (V3 m ρ c main_v30 : S100000x128.Idx → EReal)
      = (Host.scatterAdd (F := Ideal) Cert.ReferenceIdeal.scatter_S100000x128_S600000x1_S600000x128_1_0_0_1 (Cert.ReferenceIdeal.Read.val_main_v28 (F := Ideal))
          (Cert.ReferenceIdeal.Read.val_main_v29 (F := Ideal) (m ((c : Thread nD τ).loc main_arg1))) Y : FVec Ideal Cert.ReferenceIdeal.S100000x128 .f32) := by
  show StableHlo.after hostOps1 (W2 m ρ c) (Proc.devRef .tc main_v30) = _
  after_results
  rw [W2_main_v26 m ρ c, hY, W2_main_v3 m ρ c]
  rfl

/-- The upper half of the update perceptron's first weight: its rows 0..127. -/
theorem V3_v32_apply (k' k : Fin 128) :
    (V3 m ρ c main_v32 : S128x128.Idx → EReal) (ix2 k' k) = (m ((c : Thread nD τ).loc main_arg6)) (ix2 (⟨k'.val, by omega⟩ : Fin 256) k) := by
  show StableHlo.after hostOps1 (W2 m ρ c) (Proc.devRef .tc main_v32) (ix2 k' k) = _
  after_results
  rw [W2_main_arg6 m ρ c]
  exact slice2_axis0_apply 0 _ slices_S256x128_S128x128_0_0 k' k ⟨k'.val, by omega⟩ (by show k'.val = 0 + k'.val; omega)

/-- The lower half: its rows 128..255. -/
theorem V3_v34_apply (k' k : Fin 128) :
    (V3 m ρ c main_v34 : S128x128.Idx → EReal) (ix2 k' k) = (m ((c : Thread nD τ).loc main_arg6)) (ix2 (⟨128 + k'.val, by omega⟩ : Fin 256) k) := by
  show StableHlo.after hostOps1 (W2 m ρ c) (Proc.devRef .tc main_v34) (ix2 k' k) = _
  after_results
  rw [W2_main_arg6 m ρ c]
  exact slice2_axis0_apply 128 _ slices_S256x128_S128x128_128_0 k' k ⟨128 + k'.val, by omega⟩ rfl

/-- The update perceptron's second weight. -/
theorem V3_v35 : (V3 m ρ c main_v35 : S128x128.Idx → EReal) = (m ((c : Thread nD τ).loc main_arg8)) := by
  show StableHlo.after hostOps1 (W2 m ρ c) (Proc.devRef .tc main_v35) = _
  after_results
  rw [W2_main_arg8 m ρ c]
  rfl

/-- The update perceptron's first bias, laid as a row. -/
theorem V3_v36_apply (k : Fin 128) :
    (V3 m ρ c main_v36 : S1x128.Idx → EReal) (ix2 (0 : Fin 1) k) = (m ((c : Thread nD τ).loc main_arg7)) (ix1 k) := by
  show StableHlo.after hostOps1 (W2 m ρ c) (Proc.devRef .tc main_v36) (ix2 (0 : Fin 1) k) = _
  after_results
  rw [W2_main_arg7 m ρ c]
  exact shapeCast_a_1a_apply _ shapeCasts_S128_S1x128 0 k

/-- The update perceptron's second bias, laid as a row. -/
theorem V3_v37_apply (k : Fin 128) :
    (V3 m ρ c main_v37 : S1x128.Idx → EReal) (ix2 (0 : Fin 1) k) = (m ((c : Thread nD τ).loc main_arg9)) (ix1 k) := by
  show StableHlo.after hostOps1 (W2 m ρ c) (Proc.devRef .tc main_v37) (ix2 (0 : Fin 1) k) = _
  after_results
  rw [W2_main_arg9 m ρ c]
  exact shapeCast_a_1a_apply _ shapeCasts_S128_S1x128 0 k

/-- The scale, laid as a row. -/
theorem V3_v38_apply (k : Fin 128) :
    (V3 m ρ c main_v38 : S1x128.Idx → EReal) (ix2 (0 : Fin 1) k) = (m ((c : Thread nD τ).loc main_arg10)) (ix1 k) := by
  show StableHlo.after hostOps1 (W2 m ρ c) (Proc.devRef .tc main_v38) (ix2 (0 : Fin 1) k) = _
  after_results
  rw [W2_main_arg10 m ρ c]
  exact shapeCast_a_1a_apply _ shapeCasts_S128_S1x128 0 k

/-- The shift, laid as a row. -/
theorem V3_v39_apply (k : Fin 128) :
    (V3 m ρ c main_v39 : S1x128.Idx → EReal) (ix2 (0 : Fin 1) k) = (m ((c : Thread nD τ).loc main_arg11)) (ix1 k) := by
  show StableHlo.after hostOps1 (W2 m ρ c) (Proc.devRef .tc main_v39) (ix2 (0 : Fin 1) k) = _
  after_results
  rw [W2_main_arg11 m ρ c]
  exact shapeCast_a_1a_apply _ shapeCasts_S128_S1x128 0 k

end Cert.KernelIdeal.HostValues

end
-- ==== Proof.Spec.lean ====
/-
  The mathematics of one graph-decoder layer, row by row, on the extended reals (every operation exact).

  A node's update and an edge's message are the same two-layer perceptron of two 128-wide rows `a`, `b`:
  `relu (a·Wa + b·Wb + b₁) · W₂ + b₂`, where `Wa` and `Wb` are the upper and lower halves of the first layer's
  256 × 128 weight (so that `a·Wa + b·Wb` is the joined row `[a, b]` times the whole weight: `sum_fin256_halves`).
  `lnRow` is the layer normalisation of a 128-wide row `h` (mean and variance as sums divided by the literal 128, the
  literal 1e-5 under the reciprocal square root), scaled by `g`, shifted by `be`, plus the residual entry `x`.
-/
import Idealize.ShloMosaic.PureOps.Ideal

noncomputable section

open scoped BigOperators

namespace Cert.Spec

open Idealize.ShloMosaic

/-- Entry `q` of `relu (a·Wa + b·Wb + b₁) · W₂ + b₂`. -/
def mlpRow (a b : Fin 128 → EReal) (wa wb : Fin 128 → Fin 128 → EReal) (b1 : Fin 128 → EReal)
    (w2 : Fin 128 → Fin 128 → EReal) (b2 : Fin 128 → EReal) (q : Fin 128) : EReal :=
  (∑ k : Fin 128, max (((∑ k' : Fin 128, a k' * wa k' k) + (∑ k' : Fin 128, b k' * wb k' k)) + b1 k) 0 * w2 k q) + b2 q

/-- The mean of a 128-wide row: its sum divided by the literal 128. -/
def mean (h : Fin 128 → EReal) : EReal :=
  Ideal.div (∑ k : Fin 128, h k) (Ideal.ofBits .f32 0x43000000#32)

/-- The variance of a 128-wide row: the sum of the squared deviations from the mean, divided by the literal 128. -/
def var (h : Fin 128 → EReal) : EReal :=
  Ideal.div (∑ k : Fin 128, (h k - mean h) * (h k - mean h)) (Ideal.ofBits .f32 0x43000000#32)

/-- Entry `q` of the normalised row, scaled, shifted, plus the residual entry. -/
def lnRow (h g be : Fin 128 → EReal) (x : EReal) (q : Fin 128) : EReal :=
  (h q - mean h) * Ideal.rsqrt (var h + Ideal.ofBits .f32 0x3727C5AC#32) * g q + be q + x

/-- A sum over 256 coordinates is the sum over the first 128 plus the sum over the last 128. -/
theorem sum_fin256_halves {M : Type*} [AddCommMonoid M] (f : Fin 256 → M) :
    ∑ q : Fin 256, f q = ∑ k : Fin 128, f ⟨k.val, by omega⟩ + ∑ k : Fin 128, f ⟨128 + k.val, by omega⟩ := by
  have e : ∑ q : Fin 256, f q = ∑ q : Fin (128 + 128), f q := rfl
  rw [e, Fin.sum_univ_add]
  rfl

end Cert.Spec

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.LibDenseLayer.lean ====
/-
  A dense layer read at one entry, at the ideal values (extended reals, every operation exact).

  `affine x W bias j` is entry `j` of `x W + bias` for one row `x`: the sum over the contracted coordinate of the products,
  plus the bias entry. `layer_apply`: a plain matrix product of an [R, K] block by a [K, N] matrix accumulated into a zero
  splat, plus a [1, N] bias row laid along every row, read at the entry (p, j), is `affine` of row `p` of the block; nothing
  of it depends on the other rows or on `R`. `relu_apply`: the maximum with a splat of the zero word, read at an entry, is
  `max · 0`. `shapeCast_a1b_ab_apply`: an [a, 1, b] array cast to [a, b] reads, at (i, j), the operand at (i, 0, j).
-/
import Idealize.ShloMosaic.Lib.ValueLayout
import Idealize.ShloMosaic.Lib.StackMember
import Idealize.ShloMosaic.PureOps.Ideal.Laws

noncomputable section

open scoped BigOperators

namespace Cert.Lib.DenseLayer

open Idealize.ShloMosaic Idealize.ShloMosaic.ValueIdx Idealize.ShloMosaic.StackMember

/-- One affine layer on one row: entry `j` of `x W + bias`. -/
def affine {K N : Nat} (x : Fin K → EReal) (w : FVec Ideal ⟨2, ![K, N]⟩ .f32) (bias : Fin N → EReal) (j : Fin N) : EReal :=
  ∑ k : Fin K, x k * w (ix2 k j) + bias j

/-- A matrix product into a zero accumulator, plus a bias row laid along every row, read at the entry (p, j): the
    affine layer of row `p`. The dimension numbers are any record equal to the plain ones (contract the left operand's
    axis 1 with the right operand's axis 0, no batch axis). -/
theorem layer_apply {R K N : Nat} (D : DotDims ⟨2, ![R, K]⟩ ⟨2, ![K, N]⟩ ⟨2, ![R, N]⟩) (hD : D = DotDims.plain R K N)
    (prec : Option ContractPrecision) (h : FVec Ideal ⟨2, ![R, K]⟩ .f32) (w : FVec Ideal ⟨2, ![K, N]⟩ .f32)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = affine (fun k => h (ix2 p k)) w (fun j => bias (ix2 (0 : Fin 1) j)) j := by
  subst hD
  rw [addf_apply, broadcastTo_1b_ab_apply]
  unfold affine
  refine congrArg (· + bias (ix2 (0 : Fin 1) j)) ?_
  exact (congrFun (matmul_zero_eq_dotGeneral _ prec h w) _).trans (dotGeneral_plain_apply prec h w p j)

/-- The maximum with a splat zero, read at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.DenseLayer

end
-- ==== Proof.MsgKernel.lean ====
/-
  The message call read as one function of whole arrays, at the ideal values (extended reals, every operation exact).

  The call walks 100 blocks of 6000 rows of two [600000, 128] arrays (the gathered rows and the gathered columns). On
  each block it forms, row by row, the two-layer perceptron of `Spec.mlpRow`: the two row blocks times the two halves
  of the first weight, added, plus the first bias row laid along every row, the maximum with zero, times the second
  weight, plus the second bias row. A format change is the identity here, so nothing else happens to the values.
  `pay_apply` reads that block computation at one entry. Row r of the array lies in block r / 6000, at row r % 6000 of
  it; the weights and the bias rows are the same whole arrays at every block. So entry (e, q) of the message array after
  the call is `msgEntry`: the perceptron of row e of the two row arrays (`final0`).
-/
import proofs.«145476_j76373108457772_2_alg».proof.Proof.Gen.KernelIdeal.Frame
import proofs.«145476_j76373108457772_2_alg».proof.Proof.Spec
import proofs.«145476_j76373108457772_2_alg».proof.Proof.LibSoftplus
import proofs.«145476_j76373108457772_2_alg».proof.Proof.LibDenseLayer
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

open scoped BigOperators

namespace Cert.KernelIdeal.Msg

open Cert.KernelIdeal Cert.KernelIdeal.Gen Cert.Spec Idealize.ShloMosaic Idealize.ShloMosaic.ValueIdx Idealize.ShloMosaic.TcCoe Idealize.SL.Sem
open Idealize.ShloMosaic.Pipeline (Dat)

/-! ## One block: the payload of the store at an entry -/

/-- The products contract the left operand's second axis with the right operand's first, with no batch axis. -/
theorem dims_plain : dot_S6000x128_S128x128_S6000x128_1_0_0_1_n_n = DotDims.plain 6000 128 128 := rfl

/-- Entry (p, k) of the first layer before the maximum with zero: row p of the two blocks times the two halves of
    the weight, added, plus entry k of the bias row. -/
theorem hidden_apply (h1 h2 : FVec Ideal S6000x128 .bf16) (w1 w2 : FVec Ideal S128x128 .bf16) (b : FVec Ideal S1x128 .f32)
    (p : Fin 6000) (k : Fin 128) :
    addf (addf (matmul dot_S6000x128_S128x128_S6000x128_1_0_0_1_n_n none h1 w1 (constant (F := Ideal) S6000x128 .f32 0x00000000#32))
          (matmul dot_S6000x128_S128x128_S6000x128_1_0_0_1_n_n none h2 w2 (constant (F := Ideal) S6000x128 .f32 0x00000000#32)))
        (broadcastTo S6000x128 b broadcasts_S1x128_S6000x128) (ix2 p k)
      = ((∑ k' : Fin 128, h1 (ix2 p k') * w1 (ix2 k' k)) + (∑ k' : Fin 128, h2 (ix2 p k') * w2 (ix2 k' k)))
          + b (ix2 (0 : Fin 1) k) := by
  refine (addf_apply _ _ _).trans ?_
  refine congrArg₂ (fun u v : EReal => u + v) ((addf_apply _ _ _).trans (congrArg₂ (fun u v : EReal => u + v) ?_ ?_)) ?_
  · exact Cert.Lib.Softplus.matmul0_plain_apply _ dims_plain none h1 w1 p k
  · exact Cert.Lib.Softplus.matmul0_plain_apply _ dims_plain none h2 w2 p k
  · exact broadcastTo_1b_ab_apply b _ p k

/-- the payload of the one store, at entry (p,q) of the block -/
theorem pay_apply (x0 x1 : FVec Ideal S6000x128 .bf16) (x2 x3 : FVec Ideal S128x128 .bf16) (x4 : FVec Ideal S1x128 .f32)
    (x5 : FVec Ideal S128x128 .bf16) (x6 : FVec Ideal S1x128 .f32) (p : Fin 6000) (q : Fin 128) :
    k0_pay1 (F := Ideal) x0 x1 x2 x3 x4 x5 x6 (ix2 p q)
      = mlpRow (fun k => x0 (ix2 p k)) (fun k => x1 (ix2 p k)) (fun k' k => x2 (ix2 k' k)) (fun k' k => x3 (ix2 k' k))
          (fun k => x4 (ix2 (0 : Fin 1) k)) (fun k j => x5 (ix2 k j)) (fun j => x6 (ix2 (0 : Fin 1) j)) q := by
  unfold k0_pay1
  simp only [shapeCast_self]
  refine (truncf_apply (ψ := .bf16) _ bitsLt_bf16_f32 _).trans ?_
  refine (addf_apply _ _ _).trans ?_
  unfold mlpRow
  refine congrArg₂ (fun u v : EReal => u + v) ?_ (broadcastTo_1b_ab_apply x6 _ p q)
  refine (Cert.Lib.Softplus.matmul0_plain_apply _ dims_plain none _ x5 p q).trans ?_
  refine Finset.sum_congr rfl fun k _ => ?_
  refine congrArg (fun u : EReal => u * x5 (ix2 k q)) ?_
  refine (truncf_apply (ψ := .bf16) _ bitsLt_bf16_f32 _).trans ?_
  refine (Cert.Lib.DenseLayer.relu_apply _ (ix2 p k)).trans ?_
  exact congrArg (fun u : EReal => max u 0) (hidden_apply x0 x1 x2 x3 x4 p k)

/-! ## From the blocks to the array -/

/-- entry (e,q) of the message array, from the buffer contents V the call finds -/
def msgEntry (V : (c : Dev nD) → (b : Ref sig .tc) → Buf (Elt Ideal) ((c : Thread nD τ).loc b)) (c : Dev nD) (e : Fin 600000) (q : Fin 128) : EReal :=
  mlpRow (fun k => V c main_v11 (ix2 e k)) (fun k => V c main_v18 (ix2 e k)) (fun k' k => V c main_v20 (ix2 k' k)) (fun k' k => V c main_v22 (ix2 k' k))
    (fun k => V c main_v24 (ix2 (0 : Fin 1) k)) (fun k j => V c main_v23 (ix2 k j)) (fun j => V c main_v25 (ix2 (0 : Fin 1) j)) q

/-- The perceptron depends on its rows, weights and biases only through their entries. -/
theorem mlpRow_congr {a a' b b' : Fin 128 → EReal} {wa wa' wb wb' : Fin 128 → Fin 128 → EReal} {b1 b1' : Fin 128 → EReal}
    {w2 w2' : Fin 128 → Fin 128 → EReal} {b2 b2' : Fin 128 → EReal} {q q' : Fin 128}
    (ha : ∀ k, a k = a' k) (hb : ∀ k, b k = b' k) (hwa : ∀ k' k, wa k' k = wa' k' k) (hwb : ∀ k' k, wb k' k = wb' k' k)
    (hb1 : ∀ k, b1 k = b1' k) (hw2 : ∀ k j, w2 k j = w2' k j) (hb2 : ∀ j, b2 j = b2' j) (hq : q = q') :
    mlpRow a b wa wb b1 w2 b2 q = mlpRow a' b' wa' wb' b1' w2' b2' q' := by
  obtain rfl : a = a' := funext ha
  obtain rfl : b = b' := funext hb
  obtain rfl : wa = wa' := funext fun k' => funext (hwa k')
  obtain rfl : wb = wb' := funext fun k' => funext (hwb k')
  obtain rfl : b1 = b1' := funext hb1
  obtain rfl : w2 = w2' := funext fun k => funext (hw2 k)
  obtain rfl : b2 = b2' := funext hb2
  subst hq
  rfl

/-- Offsets written as a pair of zeros are the zero offsets. -/
theorem hz : (![0, 0] : Fin 2 → Nat) = fun _ => 0 := funext fun a => by fin_cases a <;> rfl

/-- The block index maps over the grid: the two row windows move with the output, one block of 6000 rows per point;
    the weights and the bias rows stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

section Blocks

variable (V : (c : Dev nD) → (b : Ref sig .tc) → Buf (Elt Ideal) ((c : Thread nD τ).loc b)) (c : Dev nD) (t : Fin cfg0.N)

/-- Row p of the first row window's block at point t is row 6000 t + p of the gathered rows. -/
theorem rows_block_apply (p : Fin 6000) (k : Fin 128) (e : Fin 600000) (he : e.val = t.val * 6000 + p.val) :
    (iblk0 V c 0 t : FVec Ideal S6000x128 .bf16) (ix2 p k) = (V c main_v11 : S600000x128.Idx → EReal) (ix2 e k) := by
  obtain ⟨e0, e1, -⟩ := idx_facts t
  unfold iblk0
  rw [View.read_apply]
  show V c main_v11 _ = V c main_v11 _
  congr 1
  funext a
  apply Fin.ext
  match a with
  | ⟨0, _⟩ => show win0_0.index t (0 : Fin 2) * 6000 + 1 * p.val = e.val; rw [e0, he]; omega
  | ⟨1, _⟩ => show win0_0.index t (1 : Fin 2) * 128 + 1 * k.val = k.val; rw [e1]; omega

/-- Row p of the second row window's block at point t is row 6000 t + p of the gathered columns. -/
theorem cols_block_apply (p : Fin 6000) (k : Fin 128) (e : Fin 600000) (he : e.val = t.val * 6000 + p.val) :
    (iblk0 V c 1 t : FVec Ideal S6000x128 .bf16) (ix2 p k) = (V c main_v18 : S600000x128.Idx → EReal) (ix2 e k) := by
  obtain ⟨-, -, e0, e1, -⟩ := idx_facts t
  unfold iblk0
  rw [View.read_apply]
  show V c main_v18 _ = V c main_v18 _
  congr 1
  funext a
  apply Fin.ext
  match a with
  | ⟨0, _⟩ => show win0_1.index t (0 : Fin 2) * 6000 + 1 * p.val = e.val; rw [e0, he]; omega
  | ⟨1, _⟩ => show win0_1.index t (1 : Fin 2) * 128 + 1 * k.val = k.val; rw [e1]; omega

/-- The upper half of the first weight is one block, the same at every point. -/
theorem wa_block_apply (k' k : Fin 128) :
    (iblk0 V c 2 t : FVec Ideal S128x128 .bf16) (ix2 k' k) = (V c main_v20 : S128x128.Idx → EReal) (ix2 k' k) := by
  obtain ⟨-, -, -, -, e0, e1, -⟩ := idx_facts t
  unfold iblk0
  rw [View.read_apply]
  show V c main_v20 _ = V c main_v20 _
  congr 1
  funext a
  apply Fin.ext
  match a with
  | ⟨0, _⟩ => show win0_2.index t (0 : Fin 2) * 128 + 1 * k'.val = k'.val; rw [e0]; omega
  | ⟨1, _⟩ => show win0_2.index t (1 : Fin 2) * 128 + 1 * k.val = k.val; rw [e1]; omega

/-- The lower half of the first weight is one block, the same at every point. -/
theorem wb_block_apply (k' k : Fin 128) :
    (iblk0 V c 3 t : FVec Ideal S128x128 .bf16) (ix2 k' k) = (V c main_v22 : S128x128.Idx → EReal) (ix2 k' k) := by
  obtain ⟨-, -, -, -, -, -, e0, e1, -⟩ := idx_facts t
  unfold iblk0
  rw [View.read_apply]
  show V c main_v22 _ = V c main_v22 _
  congr 1
  funext a
  apply Fin.ext
  match a with
  | ⟨0, _⟩ => show win0_3.index t (0 : Fin 2) * 128 + 1 * k'.val = k'.val; rw [e0]; omega
  | ⟨1, _⟩ => show win0_3.index t (1 : Fin 2) * 128 + 1 * k.val = k.val; rw [e1]; omega

/-- The first bias row is one block, the same at every point. -/
theorem b1_block_apply (k : Fin 128) :
    (iblk0 V c 4 t : FVec Ideal S1x128 .f32) (ix2 (0 : Fin 1) k) = (V c main_v24 : S1x128.Idx → EReal) (ix2 (0 : Fin 1) k) := by
  obtain ⟨-, -, -, -, -, -, -, -, e0, e1, -⟩ := idx_facts t
  unfold iblk0
  rw [View.read_apply]
  show V c main_v24 _ = V c main_v24 _
  congr 1
  funext a
  apply Fin.ext
  match a with
  | ⟨0, _⟩ => show win0_4.index t (0 : Fin 2) * 1 + 1 * (0 : Fin 1).val = (0 : Fin 1).val; rw [e0]; omega
  | ⟨1, _⟩ => show win0_4.index t (1 : Fin 2) * 128 + 1 * k.val = k.val; rw [e1]; omega

/-- The second weight is one block, the same at every point. -/
theorem w2_block_apply (k j : Fin 128) :
    (iblk0 V c 5 t : FVec Ideal S128x128 .bf16) (ix2 k j) = (V c main_v23 : S128x128.Idx → EReal) (ix2 k j) := by
  obtain ⟨-, -, -, -, -, -, -, -, -, -, e0, e1, -⟩ := idx_facts t
  unfold iblk0
  rw [View.read_apply]
  show V c main_v23 _ = V c main_v23 _
  congr 1
  funext a
  apply Fin.ext
  match a with
  | ⟨0, _⟩ => show win0_5.index t (0 : Fin 2) * 128 + 1 * k.val = k.val; rw [e0]; omega
  | ⟨1, _⟩ => show win0_5.index t (1 : Fin 2) * 128 + 1 * j.val = j.val; rw [e1]; omega

/-- The second bias row is one block, the same at every point. -/
theorem b2_block_apply (j : Fin 128) :
    (iblk0 V c 6 t : FVec Ideal S1x128 .f32) (ix2 (0 : Fin 1) j) = (V c main_v25 : S1x128.Idx → EReal) (ix2 (0 : Fin 1) j) := by
  obtain ⟨-, -, -, -, -, -, -, -, -, -, -, -, e0, e1, -⟩ := idx_facts t
  unfold iblk0
  rw [View.read_apply]
  show V c main_v25 _ = V c main_v25 _
  congr 1
  funext a
  apply Fin.ext
  match a with
  | ⟨0, _⟩ => show win0_6.index t (0 : Fin 2) * 1 + 1 * (0 : Fin 1).val = (0 : Fin 1).val; rw [e0]; omega
  | ⟨1, _⟩ => show win0_6.index t (1 : Fin 2) * 128 + 1 * j.val = j.val; rw [e1]; omega

/-- Entry y of what point t computes from its blocks is the perceptron of row 6000 t + y₀ of the two row arrays, at
    column y₁: the entry of the message array at the index i with those coordinates. -/
theorem block_entry (y : S6000x128.Idx) (i : S600000x128.Idx)
    (h0 : (i 0).val = t.val * 6000 + (y 0).val) (h1 : (i 1).val = (y 1).val) :
    k0_pay1 (F := Ideal) (iblk0 V c 0 t) (iblk0 V c 1 t) (iblk0 V c 2 t) (iblk0 V c 3 t) (iblk0 V c 4 t) (iblk0 V c 5 t) (iblk0 V c 6 t) y
      = msgEntry V c ⟨(i 0).val, (i 0).isLt⟩ ⟨(i 1).val, (i 1).isLt⟩ := by
  obtain ⟨p, q, rfl⟩ : ∃ (p : Fin 6000) (q : Fin 128), y = ix2 p q := ⟨y 0, y 1, eq_ix2 y⟩
  have h0' : (i 0).val = t.val * 6000 + p.val := h0
  have h1' : (i 1).val = q.val := h1
  refine (pay_apply (iblk0 V c 0 t) (iblk0 V c 1 t) (iblk0 V c 2 t) (iblk0 V c 3 t) (iblk0 V c 4 t) (iblk0 V c 5 t) (iblk0 V c 6 t) p q).trans ?_
  unfold msgEntry
  exact mlpRow_congr (fun k => rows_block_apply V c t p k _ h0') (fun k => cols_block_apply V c t p k _ h0')
    (fun k' k => wa_block_apply V c t k' k) (fun k' k => wb_block_apply V c t k' k) (fun k => b1_block_apply V c t k)
    (fun k j => w2_block_apply V c t k j) (fun j => b2_block_apply V c t j) (Fin.ext h1'.symm)

/-- What point t writes back is its block of the array of the perceptron entries. -/
theorem flushed_eq :
    (dat0 (F := Ideal) V c).flushed 7 t = ((cfg0.win 7).blk t).view.read (Elt Ideal)
      (fun i : S600000x128.Idx => msgEntry V c ⟨(i 0).val, (i 0).isLt⟩ ⟨(i 1).val, (i 1).isLt⟩) := by
  show (cfg0.win 7).cut (grid0.coords t) ((dat0 V c).after 7 t) = _
  rw [after0_7]
  unfold out0_7
  rw [View.canon_unit_zero hz]
  simp only [View.ld_unit_zero (S := S6000x128) hz, View.ld_unit_zero (S := S128x128) hz, View.ld_unit_zero (S := S1x128) hz]
  obtain ⟨-, -, -, -, -, -, -, -, -, -, -, -, -, -, e0, e1⟩ := idx_facts t
  funext j
  rw [View.read_apply]
  refine block_entry V c t ((cfg0.win 7).xinj (grid0.coords t) j) (((cfg0.win 7).blk t).view.emb j) ?_ ?_
  · show win0_7.index t (0 : Fin 2) * 6000 + 1 * (j 0).val = t.val * 6000 + (j 0).val
    rw [e0]; omega
  · show win0_7.index t (1 : Fin 2) * 128 + 1 * (j 1).val = (j 1).val
    rw [e1]; omega

end Blocks

/-- An index of the array is in point t's block iff each coordinate is in the block's range on its axis. -/
theorem mem_blk (t : Fin cfg0.N) (i : S600000x128.Idx) :
    i ∈ ((cfg0.win 7).blk t).view.set ↔ ∀ a : Fin 2, win0_7.index t a * S6000x128.size a ≤ (i a).val ∧ (i a).val < win0_7.index t a * S6000x128.size a + S6000x128.size a := by
  show i ∈ ((View.whole main_v26).slice (win0_7.rect t)).set ↔ _
  rw [View.set_slice_whole, Rect.mem_set_unit]
  exact Iff.rfl

/-- Every index of the array is in some point's block: row r is in block r / 6000, since 100 × 6000 = 600000. -/
theorem cover (i : S600000x128.Idx) : ∃ t : Fin cfg0.N, (cfg0.win 7).flush t = true ∧ i ∈ ((cfg0.win 7).blk t).view.set := by
  have hi0 : (i 0).val < 600000 := (i 0).isLt
  have hi1 : (i 1).val < 128 := (i 1).isLt
  have ht : (i 0).val / 6000 < cfg0.N := by rw [show cfg0.N = 100 from N_0]; omega
  obtain ⟨-, -, -, -, -, -, -, -, -, -, -, -, -, -, e0, e1⟩ := idx_facts ⟨(i 0).val / 6000, ht⟩
  have e0' : win0_7.index ⟨(i 0).val / 6000, ht⟩ (0 : Fin 2) = (i 0).val / 6000 := e0
  refine ⟨⟨(i 0).val / 6000, ht⟩, flush0_7 _, ?_⟩
  rw [mem_blk]
  intro a
  match a with
  | ⟨0, _⟩ =>
    show win0_7.index ⟨(i 0).val / 6000, ht⟩ (0 : Fin 2) * 6000 ≤ (i 0).val ∧ (i 0).val < win0_7.index ⟨(i 0).val / 6000, ht⟩ (0 : Fin 2) * 6000 + 6000
    rw [e0']; omega
  | ⟨1, _⟩ =>
    show win0_7.index ⟨(i 0).val / 6000, ht⟩ (1 : Fin 2) * 128 ≤ (i 1).val ∧ (i 1).val < win0_7.index ⟨(i 0).val / 6000, ht⟩ (1 : Fin 2) * 128 + 128
    rw [e1]; omega

/-- the message array after the call: every entry is msgEntry -/
theorem final0 (V : (c : Dev nD) → (b : Ref sig .tc) → Buf (Elt Ideal) ((c : Thread nD τ).loc b)) (c : Dev nD) :
    ((dat0 (F := Ideal) V c).arrAt 7 cfg0.N : S600000x128.Idx → EReal)
      = fun i => msgEntry V c ⟨(i 0).val, (i 0).isLt⟩ ⟨(i 1).val, (i 1).isLt⟩ :=
  (dat0 (F := Ideal) V c).arrAt_eq_of_cover 7
    (fun i : S600000x128.Idx => msgEntry V c ⟨(i 0).val, (i 0).isLt⟩ ⟨(i 1).val, (i 1).isLt⟩)
    (fun t _ => flushed_eq V c t) cover

end Cert.KernelIdeal.Msg

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.UpdKernel.lean ====
/-
  The update call read as one function of whole arrays, at the ideal values (extended reals, every operation exact).

  The call walks 20 blocks of 5000 rows of two [100000, 128] arrays (the node rows x and the aggregated messages agg). On a
  block it forms, row by row, the two-layer perceptron relu (x·Wa + agg·Wb + b₁)·W₂ + b₂ (the two weight halves, the second
  weight and the biases are the same for every block), then normalises each 128-wide row: the mean is the row's sum divided
  by the literal 128, the variance the sum of the squared deviations divided by the same literal, the deviations are scaled
  by the reciprocal square root of the variance plus the literal 1e-5, then by gamma, shifted by beta, and the row of x is
  added back. Every step acts on one row at a time, so entry (n, q) of the result depends only on row n of x and of agg.

  The module reads the body's three payloads at an entry (the deviations, the variance column, the stored block), and then
  the result array entry by entry: block t of the result is rows 5000 t … 5000 t + 4999 of one function of the whole
  arrays, and the 20 blocks cover the 100000 rows.
-/
import proofs.«145476_j76373108457772_2_alg».proof.Proof.Gen.KernelIdeal.Frame
import proofs.«145476_j76373108457772_2_alg».proof.Proof.Spec
import proofs.«145476_j76373108457772_2_alg».proof.Proof.LibSoftplus
import proofs.«145476_j76373108457772_2_alg».proof.Proof.LibDenseLayer
import proofs.«145476_j76373108457772_2_alg».proof.Proof.LibColumnLayout
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

open scoped BigOperators

namespace Cert.KernelIdeal.Upd

open Cert.KernelIdeal Cert.KernelIdeal.Gen Cert.Spec Idealize.ShloMosaic Idealize.ShloMosaic.ValueIdx Idealize.ShloMosaic.TcCoe Idealize.SL.Sem
open Idealize.ShloMosaic.Pipeline (Dat)

/-! ## The body's payloads at an entry -/

/-- the perceptron row of the update call at row p of the blocks: entry k of relu(x·Wa + agg·Wb + b₁)·W₂ + b₂ -/
def hRow (x0 x1 : FVec Ideal S5000x128 .f32) (x2 x3 : FVec Ideal S128x128 .bf16) (x4 : FVec Ideal S1x128 .f32)
    (x5 : FVec Ideal S128x128 .bf16) (x6 : FVec Ideal S1x128 .f32) (p : Fin 5000) (k : Fin 128) : EReal :=
  mlpRow (fun k' => x0 (ix2 p k')) (fun k' => x1 (ix2 p k')) (fun k' k => x2 (ix2 k' k)) (fun k' k => x3 (ix2 k' k))
    (fun k => x4 (ix2 (0 : Fin 1) k)) (fun k j => x5 (ix2 k j)) (fun j => x6 (ix2 (0 : Fin 1) j)) k

/-- The call's matrix products contract the left operand's lanes with the right operand's rows. -/
theorem dims_plain : dot_S5000x128_S128x128_S5000x128_1_0_0_1_n_n = DotDims.plain 5000 128 128 := rfl

/-- A reciprocal square root at an entry is the reciprocal square root of the entry. -/
theorem rsqrt_apply {s : Shape} (v : FVec Ideal s .f32) (i : s.Idx) : rsqrt v i = Ideal.rsqrt (v i) := rfl

/-- A row sum kept as a column: the lane sum of a [5000, 128] block, laid as [5000, 1], at (p, 0) is the sum of row p. -/
theorem rowSum_col_apply (v : FVec Ideal S5000x128 .f32) (h : S5000x128.Reduces [1] S5000) (hφ : FKind.Formats .f32)
    (hacc : (0x00000000#32 : BitVec 32) = FKind.add.neutral .f32 hφ) (hc : S5000.ShapeCasts S5000x1) (p : Fin 5000) (u : Fin 1) :
    shapeCast S5000x1 (multiReduction .add [1] S5000 v 0x00000000#32 h hφ hacc) hc (ix2 p u) = ∑ k : Fin 128, v (ix2 p k) :=
  (PhysLoss.shapeCast_a_a1_apply _ hc p u).trans
    ((Ideal.multiReduction_add_single v 0x00000000#32 h hφ hacc (ix1 p)).trans
      (Finset.sum_congr rfl fun k _ => congrArg v (funext fun a => Fin.ext (by match a with | ⟨0, _⟩ => rfl | ⟨1, _⟩ => rfl))))

/-- Entry (p, j) of the perceptron of two blocks of rows, as the body computes it (the operands of each matrix product
    stored in the narrow format, which changes nothing here; each bias row laid along every row): the perceptron row of
    row p at j. Nothing of it depends on the other rows. -/
theorem mlp_block_apply (D : DotDims S5000x128 S128x128 S5000x128) (hD : D = DotDims.plain 5000 128 128)
    (x0 x1 : FVec Ideal S5000x128 .f32) (x2 x3 : FVec Ideal S128x128 .bf16) (x4 : FVec Ideal S1x128 .f32)
    (x5 : FVec Ideal S128x128 .bf16) (x6 : FVec Ideal S1x128 .f32)
    (hlt : FTy.bits .bf16 < FTy.bits .f32) (hb : S1x128.Broadcasts S5000x128) (p : Fin 5000) (j : Fin 128) :
    addf (matmul D none
            (truncf .bf16
              (maximumf
                (addf (addf (matmul D none (truncf .bf16 x0 hlt) x2 (constant S5000x128 .f32 0x00000000#32))
                            (matmul D none (truncf .bf16 x1 hlt) x3 (constant S5000x128 .f32 0x00000000#32)))
                      (broadcastTo S5000x128 x4 hb))
                (broadcast S5000x128 (Scalar.ofBits (F := Ideal) .f32 0x00000000#32))) hlt)
            x5 (constant S5000x128 .f32 0x00000000#32))
         (broadcastTo S5000x128 x6 hb) (ix2 p j)
      = hRow x0 x1 x2 x3 x4 x5 x6 p j := by
  rw [addf_apply, broadcastTo_1b_ab_apply, Cert.Lib.Softplus.matmul0_plain_apply D hD]
  unfold hRow mlpRow
  refine congrArg (· + x6 (ix2 (0 : Fin 1) j)) (Finset.sum_congr rfl fun k _ => ?_)
  rw [truncf_apply, Cert.Lib.DenseLayer.relu_apply, addf_apply, addf_apply, broadcastTo_1b_ab_apply,
    Cert.Lib.Softplus.matmul0_plain_apply D hD, Cert.Lib.Softplus.matmul0_plain_apply D hD]
  rfl

/-- The deviations: entry (p, k) of the first payload the normalisation reads is the perceptron row's entry minus the row's mean. -/
theorem pay2_apply (x0 x1 : FVec Ideal S5000x128 .f32) (x2 x3 : FVec Ideal S128x128 .bf16) (x4 : FVec Ideal S1x128 .f32)
    (x5 : FVec Ideal S128x128 .bf16) (x6 : FVec Ideal S1x128 .f32) (p : Fin 5000) (k : Fin 128) :
    k1_pay2 (F := Ideal) x0 x1 x2 x3 x4 x5 x6 (ix2 p k)
      = hRow x0 x1 x2 x3 x4 x5 x6 p k - mean (hRow x0 x1 x2 x3 x4 x5 x6 p) := by
  unfold k1_pay2
  dsimp only
  simp only [shapeCast_self]
  rw [subf_apply]
  refine congrArg₂ (· - ·) (mlp_block_apply _ dims_plain x0 x1 x2 x3 x4 x5 x6 _ _ p k) ?_
  rw [PhysLoss.broadcastTo_a1_ab_apply, divf_apply]
  unfold mean
  exact congrArg₂ Ideal.div
    ((rowSum_col_apply _ _ _ _ _ p 0).trans
      (Finset.sum_congr rfl fun j _ => mlp_block_apply _ dims_plain x0 x1 x2 x3 x4 x5 x6 _ _ p j)) rfl

/-- The variance column: entry (p, 0) of the second payload is the variance of the perceptron row. -/
theorem pay3_apply (x0 x1 : FVec Ideal S5000x128 .f32) (x2 x3 : FVec Ideal S128x128 .bf16) (x4 : FVec Ideal S1x128 .f32)
    (x5 : FVec Ideal S128x128 .bf16) (x6 : FVec Ideal S1x128 .f32) (p : Fin 5000) :
    k1_pay3 (F := Ideal) x0 x1 x2 x3 x4 x5 x6 (ix2 p (0 : Fin 1)) = var (hRow x0 x1 x2 x3 x4 x5 x6 p) := by
  unfold k1_pay3
  dsimp only
  rw [divf_apply]
  unfold var
  refine congrArg₂ Ideal.div ((rowSum_col_apply _ _ _ _ _ p 0).trans (Finset.sum_congr rfl fun k _ => ?_)) rfl
  rw [mulf_apply, pay2_apply]

/-- the payload of the one store, at entry (p,q) of the block (the three payloads composed as out1_9 composes them) -/
theorem pay_apply (x0 x1 : FVec Ideal S5000x128 .f32) (x2 x3 : FVec Ideal S128x128 .bf16) (x4 : FVec Ideal S1x128 .f32)
    (x5 : FVec Ideal S128x128 .bf16) (x6 x7 x8 : FVec Ideal S1x128 .f32) (p : Fin 5000) (q : Fin 128) :
    k1_pay1 (F := Ideal) x0 (k1_pay2 x0 x1 x2 x3 x4 x5 x6) (k1_pay3 x0 x1 x2 x3 x4 x5 x6) x7 x8 (ix2 p q)
      = lnRow (hRow x0 x1 x2 x3 x4 x5 x6 p) (fun j => x7 (ix2 (0 : Fin 1) j)) (fun j => x8 (ix2 (0 : Fin 1) j)) (x0 (ix2 p q)) q := by
  unfold k1_pay1
  simp only [shapeCast_self, addf_apply, mulf_apply, broadcastTo_1b_ab_apply, PhysLoss.broadcastTo_a1_ab_apply, rsqrt_apply,
    broadcast_apply]
  rw [pay2_apply, pay3_apply]
  rfl

/-! ## From blocks to the array -/

section Array

variable (V : (c : Dev nD) → (b : Ref sig .tc) → Buf (Elt Ideal) ((c : Thread nD τ).loc b))

/-- entry (n,q) of the result array, from the buffer contents V the call finds -/
def updEntry (c : Dev nD) (n : Fin 100000) (q : Fin 128) : EReal :=
  lnRow (fun k => mlpRow (fun k' => V c main_arg0 (ix2 n k')) (fun k' => V c main_v30 (ix2 n k'))
            (fun k' k => V c main_v32 (ix2 k' k)) (fun k' k => V c main_v34 (ix2 k' k)) (fun k => V c main_v36 (ix2 (0 : Fin 1) k))
            (fun k j => V c main_v35 (ix2 k j)) (fun j => V c main_v37 (ix2 (0 : Fin 1) j)) k)
    (fun j => V c main_v38 (ix2 (0 : Fin 1) j)) (fun j => V c main_v39 (ix2 (0 : Fin 1) j)) (V c main_arg0 (ix2 n q)) q

/-- The body's accesses start at the block's origin. -/
theorem origin : (![0, 0] : Fin 2 → Nat) = fun _ => 0 := funext fun a => by fin_cases a <;> rfl

/-- The grid has 20 points. -/
theorem point_lt (t : Fin cfg1.N) : t.val < 20 := lt_of_lt_of_eq t.isLt N_1

/-- Window 0's block index at point t is (t, 0). -/
theorem idx_0 : ∀ t : Fin cfg1.N, win1_0.index t (0 : Fin 2) = t.val ∧ win1_0.index t (1 : Fin 2) = 0 :=
  (by decide +kernel : ∀ t : Fin grid1.N, _)
/-- Window 1's block index at point t is (t, 0). -/
theorem idx_1 : ∀ t : Fin cfg1.N, win1_1.index t (0 : Fin 2) = t.val ∧ win1_1.index t (1 : Fin 2) = 0 :=
  (by decide +kernel : ∀ t : Fin grid1.N, _)
/-- Window 9's block index at point t is (t, 0). -/
theorem idx_9 : ∀ t : Fin cfg1.N, win1_9.index t (0 : Fin 2) = t.val ∧ win1_9.index t (1 : Fin 2) = 0 :=
  (by decide +kernel : ∀ t : Fin grid1.N, _)
/-- Window 2's block index at every point is (0, 0). -/
theorem idx_2 : ∀ t : Fin cfg1.N, win1_2.index t (0 : Fin 2) = 0 ∧ win1_2.index t (1 : Fin 2) = 0 :=
  (by decide +kernel : ∀ t : Fin grid1.N, _)
/-- Window 3's block index at every point is (0, 0). -/
theorem idx_3 : ∀ t : Fin cfg1.N, win1_3.index t (0 : Fin 2) = 0 ∧ win1_3.index t (1 : Fin 2) = 0 :=
  (by decide +kernel : ∀ t : Fin grid1.N, _)
/-- Window 4's block index at every point is (0, 0). -/
theorem idx_4 : ∀ t : Fin cfg1.N, win1_4.index t (0 : Fin 2) = 0 ∧ win1_4.index t (1 : Fin 2) = 0 :=
  (by decide +kernel : ∀ t : Fin grid1.N, _)
/-- Window 5's block index at every point is (0, 0). -/
theorem idx_5 : ∀ t : Fin cfg1.N, win1_5.index t (0 : Fin 2) = 0 ∧ win1_5.index t (1 : Fin 2) = 0 :=
  (by decide +kernel : ∀ t : Fin grid1.N, _)
/-- Window 6's block index at every point is (0, 0). -/
theorem idx_6 : ∀ t : Fin cfg1.N, win1_6.index t (0 : Fin 2) = 0 ∧ win1_6.index t (1 : Fin 2) = 0 :=
  (by decide +kernel : ∀ t : Fin grid1.N, _)
/-- Window 7's block index at every point is (0, 0). -/
theorem idx_7 : ∀ t : Fin cfg1.N, win1_7.index t (0 : Fin 2) = 0 ∧ win1_7.index t (1 : Fin 2) = 0 :=
  (by decide +kernel : ∀ t : Fin grid1.N, _)
/-- Window 8's block index at every point is (0, 0). -/
theorem idx_8 : ∀ t : Fin cfg1.N, win1_8.index t (0 : Fin 2) = 0 ∧ win1_8.index t (1 : Fin 2) = 0 :=
  (by decide +kernel : ∀ t : Fin grid1.N, _)

/-- Input window 0's block at point t is rows 5000 t … 5000 t + 4999 of x. -/
theorem iblk_0 (c : Dev nD) (t : Fin cfg1.N) (p : Fin 5000) (n : Fin 100000) (hn : n.val = t.val * 5000 + p.val) (k : Fin 128) :
    (iblk1 V c 0 t : S5000x128.Idx → EReal) (ix2 p k) = (V c main_arg0 : S100000x128.Idx → EReal) (ix2 n k) := by
  obtain ⟨e0, e1⟩ := idx_0 t
  unfold iblk1
  rw [View.read_apply]
  show V c main_arg0 _ = V c main_arg0 _
  refine congrArg (V c main_arg0) (funext fun d => Fin.ext ?_)
  match d with
  | ⟨0, _⟩ => show win1_0.index t (0 : Fin 2) * 5000 + 1 * p.val = n.val; rw [e0, hn]; omega
  | ⟨1, _⟩ => show win1_0.index t (1 : Fin 2) * 128 + 1 * k.val = k.val; rw [e1]; omega

/-- Input window 1's block at point t is rows 5000 t … 5000 t + 4999 of agg. -/
theorem iblk_1 (c : Dev nD) (t : Fin cfg1.N) (p : Fin 5000) (n : Fin 100000) (hn : n.val = t.val * 5000 + p.val) (k : Fin 128) :
    (iblk1 V c 1 t : S5000x128.Idx → EReal) (ix2 p k) = (V c main_v30 : S100000x128.Idx → EReal) (ix2 n k) := by
  obtain ⟨e0, e1⟩ := idx_1 t
  unfold iblk1
  rw [View.read_apply]
  show V c main_v30 _ = V c main_v30 _
  refine congrArg (V c main_v30) (funext fun d => Fin.ext ?_)
  match d with
  | ⟨0, _⟩ => show win1_1.index t (0 : Fin 2) * 5000 + 1 * p.val = n.val; rw [e0, hn]; omega
  | ⟨1, _⟩ => show win1_1.index t (1 : Fin 2) * 128 + 1 * k.val = k.val; rw [e1]; omega

/-- Input window 2's block at every point is the whole of the first weight's upper half. -/
theorem iblk_2 (c : Dev nD) (t : Fin cfg1.N) (a : Fin 128) (b : Fin 128) :
    (iblk1 V c 2 t : S128x128.Idx → EReal) (ix2 a b) = (V c main_v32 : S128x128.Idx → EReal) (ix2 a b) := by
  obtain ⟨e0, e1⟩ := idx_2 t
  unfold iblk1
  rw [View.read_apply]
  show V c main_v32 _ = V c main_v32 _
  refine congrArg (V c main_v32) (funext fun d => Fin.ext ?_)
  match d with
  | ⟨0, _⟩ => show win1_2.index t (0 : Fin 2) * 128 + 1 * a.val = a.val; rw [e0]; omega
  | ⟨1, _⟩ => show win1_2.index t (1 : Fin 2) * 128 + 1 * b.val = b.val; rw [e1]; omega

/-- Input window 3's block at every point is the whole of the first weight's lower half. -/
theorem iblk_3 (c : Dev nD) (t : Fin cfg1.N) (a : Fin 128) (b : Fin 128) :
    (iblk1 V c 3 t : S128x128.Idx → EReal) (ix2 a b) = (V c main_v34 : S128x128.Idx → EReal) (ix2 a b) := by
  obtain ⟨e0, e1⟩ := idx_3 t
  unfold iblk1
  rw [View.read_apply]
  show V c main_v34 _ = V c main_v34 _
  refine congrArg (V c main_v34) (funext fun d => Fin.ext ?_)
  match d with
  | ⟨0, _⟩ => show win1_3.index t (0 : Fin 2) * 128 + 1 * a.val = a.val; rw [e0]; omega
  | ⟨1, _⟩ => show win1_3.index t (1 : Fin 2) * 128 + 1 * b.val = b.val; rw [e1]; omega

/-- Input window 4's block at every point is the whole of the first bias row. -/
theorem iblk_4 (c : Dev nD) (t : Fin cfg1.N) (a : Fin 1) (b : Fin 128) :
    (iblk1 V c 4 t : S1x128.Idx → EReal) (ix2 a b) = (V c main_v36 : S1x128.Idx → EReal) (ix2 a b) := by
  obtain ⟨e0, e1⟩ := idx_4 t
  unfold iblk1
  rw [View.read_apply]
  show V c main_v36 _ = V c main_v36 _
  refine congrArg (V c main_v36) (funext fun d => Fin.ext ?_)
  match d with
  | ⟨0, _⟩ => show win1_4.index t (0 : Fin 2) * 1 + 1 * a.val = a.val; rw [e0]; omega
  | ⟨1, _⟩ => show win1_4.index t (1 : Fin 2) * 128 + 1 * b.val = b.val; rw [e1]; omega

/-- Input window 5's block at every point is the whole of the second weight. -/
theorem iblk_5 (c : Dev nD) (t : Fin cfg1.N) (a : Fin 128) (b : Fin 128) :
    (iblk1 V c 5 t : S128x128.Idx → EReal) (ix2 a b) = (V c main_v35 : S128x128.Idx → EReal) (ix2 a b) := by
  obtain ⟨e0, e1⟩ := idx_5 t
  unfold iblk1
  rw [View.read_apply]
  show V c main_v35 _ = V c main_v35 _
  refine congrArg (V c main_v35) (funext fun d => Fin.ext ?_)
  match d with
  | ⟨0, _⟩ => show win1_5.index t (0 : Fin 2) * 128 + 1 * a.val = a.val; rw [e0]; omega
  | ⟨1, _⟩ => show win1_5.index t (1 : Fin 2) * 128 + 1 * b.val = b.val; rw [e1]; omega

/-- Input window 6's block at every point is the whole of the second bias row. -/
theorem iblk_6 (c : Dev nD) (t : Fin cfg1.N) (a : Fin 1) (b : Fin 128) :
    (iblk1 V c 6 t : S1x128.Idx → EReal) (ix2 a b) = (V c main_v37 : S1x128.Idx → EReal) (ix2 a b) := by
  obtain ⟨e0, e1⟩ := idx_6 t
  unfold iblk1
  rw [View.read_apply]
  show V c main_v37 _ = V c main_v37 _
  refine congrArg (V c main_v37) (funext fun d => Fin.ext ?_)
  match d with
  | ⟨0, _⟩ => show win1_6.index t (0 : Fin 2) * 1 + 1 * a.val = a.val; rw [e0]; omega
  | ⟨1, _⟩ => show win1_6.index t (1 : Fin 2) * 128 + 1 * b.val = b.val; rw [e1]; omega

/-- Input window 7's block at every point is the whole of the scale row. -/
theorem iblk_7 (c : Dev nD) (t : Fin cfg1.N) (a : Fin 1) (b : Fin 128) :
    (iblk1 V c 7 t : S1x128.Idx → EReal) (ix2 a b) = (V c main_v38 : S1x128.Idx → EReal) (ix2 a b) := by
  obtain ⟨e0, e1⟩ := idx_7 t
  unfold iblk1
  rw [View.read_apply]
  show V c main_v38 _ = V c main_v38 _
  refine congrArg (V c main_v38) (funext fun d => Fin.ext ?_)
  match d with
  | ⟨0, _⟩ => show win1_7.index t (0 : Fin 2) * 1 + 1 * a.val = a.val; rw [e0]; omega
  | ⟨1, _⟩ => show win1_7.index t (1 : Fin 2) * 128 + 1 * b.val = b.val; rw [e1]; omega

/-- Input window 8's block at every point is the whole of the shift row. -/
theorem iblk_8 (c : Dev nD) (t : Fin cfg1.N) (a : Fin 1) (b : Fin 128) :
    (iblk1 V c 8 t : S1x128.Idx → EReal) (ix2 a b) = (V c main_v39 : S1x128.Idx → EReal) (ix2 a b) := by
  obtain ⟨e0, e1⟩ := idx_8 t
  unfold iblk1
  rw [View.read_apply]
  show V c main_v39 _ = V c main_v39 _
  refine congrArg (V c main_v39) (funext fun d => Fin.ext ?_)
  match d with
  | ⟨0, _⟩ => show win1_8.index t (0 : Fin 2) * 1 + 1 * a.val = a.val; rw [e0]; omega
  | ⟨1, _⟩ => show win1_8.index t (1 : Fin 2) * 128 + 1 * b.val = b.val; rw [e1]; omega

/-- Output window 9's block at point t, read through the window, is rows 5000 t … 5000 t + 4999 of the array. -/
theorem read_out (G : S100000x128.Idx → EReal) (t : Fin cfg1.N) (p : Fin 5000) (q : Fin 128) (n : Fin 100000)
    (hn : n.val = t.val * 5000 + p.val) :
    (((cfg1.win 9).blk t).view.read (Elt Ideal) G : S5000x128.Idx → EReal) (ix2 p q) = G (ix2 n q) := by
  obtain ⟨e0, e1⟩ := idx_9 t
  rw [View.read_apply]
  show G _ = G _
  refine congrArg G (funext fun d => Fin.ext ?_)
  match d with
  | ⟨0, _⟩ => show win1_9.index t (0 : Fin 2) * 5000 + 1 * p.val = n.val; rw [e0, hn]; omega
  | ⟨1, _⟩ => show win1_9.index t (1 : Fin 2) * 128 + 1 * q.val = q.val; rw [e1]; omega

/-- What point t writes back is block t of the one function of the whole arrays: row p of the block is row 5000 t + p of
    x and of agg through the same perceptron and normalisation, the weights, biases, scale and shift being whole at every
    point. -/
theorem flushed_eq (c : Dev nD) (t : Fin cfg1.N) :
    (dat1 V c).flushed 9 t = ((cfg1.win 9).blk t).view.read (Elt Ideal)
      (fun i : S100000x128.Idx => updEntry V c ⟨(i 0).val, (i 0).isLt⟩ ⟨(i 1).val, (i 1).isLt⟩) := by
  show (cfg1.win 9).cut (grid1.coords t) ((dat1 V c).after 9 t) = _
  rw [after1_9]
  unfold out1_9
  rw [View.canon_unit_zero origin]
  simp only [View.ld_unit_zero (S := S5000x128) origin, View.ld_unit_zero (S := S128x128) origin, View.ld_unit_zero (S := S1x128) origin]
  refine funext fun (j : S5000x128.Idx) => ?_
  obtain ⟨p, q, rfl⟩ : ∃ (p : Fin 5000) (q : Fin 128), j = ix2 p q := ⟨j 0, j 1, eq_ix2 j⟩
  have ht : t.val < 20 := point_lt t
  obtain ⟨n, hn⟩ : ∃ n : Fin 100000, n.val = t.val * 5000 + p.val :=
    ⟨⟨t.val * 5000 + p.val, by have := p.isLt; omega⟩, rfl⟩
  show k1_pay1 (F := Ideal) (iblk1 V c 0 t)
      (k1_pay2 (iblk1 V c 0 t) (iblk1 V c 1 t) (iblk1 V c 2 t) (iblk1 V c 3 t) (iblk1 V c 4 t) (iblk1 V c 5 t) (iblk1 V c 6 t))
      (k1_pay3 (iblk1 V c 0 t) (iblk1 V c 1 t) (iblk1 V c 2 t) (iblk1 V c 3 t) (iblk1 V c 4 t) (iblk1 V c 5 t) (iblk1 V c 6 t))
      (iblk1 V c 7 t) (iblk1 V c 8 t) (ix2 p q) = _
  refine (pay_apply (iblk1 V c 0 t) (iblk1 V c 1 t) (iblk1 V c 2 t) (iblk1 V c 3 t) (iblk1 V c 4 t) (iblk1 V c 5 t)
    (iblk1 V c 6 t) (iblk1 V c 7 t) (iblk1 V c 8 t) p q).trans (Eq.trans ?_
      (read_out (fun i : S100000x128.Idx => updEntry V c ⟨(i 0).val, (i 0).isLt⟩ ⟨(i 1).val, (i 1).isLt⟩) t p q n hn).symm)
  show _ = updEntry V c n q
  have eh : hRow (iblk1 V c 0 t) (iblk1 V c 1 t) (iblk1 V c 2 t) (iblk1 V c 3 t) (iblk1 V c 4 t) (iblk1 V c 5 t) (iblk1 V c 6 t) p
      = fun k => mlpRow (fun k' => V c main_arg0 (ix2 n k')) (fun k' => V c main_v30 (ix2 n k'))
          (fun k' k => V c main_v32 (ix2 k' k)) (fun k' k => V c main_v34 (ix2 k' k)) (fun k => V c main_v36 (ix2 (0 : Fin 1) k))
          (fun k j => V c main_v35 (ix2 k j)) (fun j => V c main_v37 (ix2 (0 : Fin 1) j)) k := by
    funext k
    unfold hRow
    simp only [iblk_0 V c t p n hn, iblk_1 V c t p n hn, iblk_2 V c t, iblk_3 V c t, iblk_4 V c t, iblk_5 V c t, iblk_6 V c t]
  rw [eh]
  unfold updEntry
  simp only [iblk_0 V c t p n hn, iblk_7 V c t, iblk_8 V c t]

/-- An index of the array is in point t's block iff each coordinate is in the block's range on its axis. -/
theorem mem_blk (t : Fin cfg1.N) (i : S100000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v40).slice (win1_9.rect t)).set ↔ _
  rw [View.set_slice_whole, Rect.mem_set_unit]
  exact Iff.rfl

/-- The 20 blocks of 5000 rows cover the 100000 rows: row r is in the block of point r / 5000. -/
theorem covered (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1⟩ := idx_9 t
  refine ⟨t, flush1_9 t, ?_⟩
  rw [mem_blk]
  intro a
  match a with
  | ⟨0, _⟩ =>
    show win1_9.index t (0 : Fin 2) * 5000 ≤ (i 0).val ∧ (i 0).val < win1_9.index t (0 : Fin 2) * 5000 + 5000
    rw [e0, ht]
    omega
  | ⟨1, _⟩ =>
    show win1_9.index t (1 : Fin 2) * 128 ≤ (i 1).val ∧ (i 1).val < win1_9.index t (1 : Fin 2) * 128 + 128
    rw [e1]
    omega

/-- the result array after the call: every entry is updEntry -/
theorem final1 (c : Dev nD) :
    ((dat1 (F := Ideal) V c).arrAt 9 cfg1.N : S100000x128.Idx → EReal)
      = fun i => updEntry V c ⟨(i 0).val, (i 0).isLt⟩ ⟨(i 1).val, (i 1).isLt⟩ :=
  (dat1 V c).arrAt_eq_of_cover 9
    (fun i : S100000x128.Idx => updEntry V c ⟨(i 0).val, (i 0).isLt⟩ ⟨(i 1).val, (i 1).isLt⟩)
    (fun t _ => flushed_eq V c t) covered

end Array

end Cert.KernelIdeal.Upd

end
-- ==== Proof.RefRead.lean ====
/-
  The reference program read at an index, on the extended reals (every operation exact).

  An edge's message is the two-layer perceptron of the two gathered rows (the sender's and the receiver's), and a
  node's result is the layer normalisation of the update perceptron's row of the node's own row and its gathered
  messages, plus the node's own entry. The first layer of either perceptron multiplies the JOINED row `[a, b]` by a
  256 × 128 weight: that sum over 256 coordinates is split into its two halves, and the joined row is read in each
  half as the piece it came from. The two gathers and the scatter-add stay as the program's own terms: nothing here
  depends on which rows they pick.
-/
import proofs.«145476_j76373108457772_2_alg».proof.Proof.Gen.ReferenceIdeal.Read
import proofs.«145476_j76373108457772_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefRead

open Cert.ReferenceIdeal Cert.ReferenceIdeal.Read Cert.Spec Idealize.ShloMosaic Idealize.ShloMosaic.ValueIdx

/-! ## Two indices with the same coordinates are equal -/

/-- Rank-2 indices are equal when both coordinates are. -/
theorem idx2_ext {n0 n1 : Nat} {i j : (⟨2, ![n0, n1]⟩ : Shape).Idx}
    (h0 : (i ⟨0, Nat.zero_lt_two⟩).val = (j ⟨0, Nat.zero_lt_two⟩).val)
    (h1 : (i ⟨1, Nat.one_lt_two⟩).val = (j ⟨1, Nat.one_lt_two⟩).val) : i = j :=
  funext fun a => Fin.ext (by match a with | ⟨0, _⟩ => exact h0 | ⟨1, _⟩ => exact h1)

/-- Rank-1 indices are equal when their coordinate is. -/
theorem idx1_ext {n : Nat} {i j : (⟨1, ![n]⟩ : Shape).Idx}
    (h0 : (i ⟨0, Nat.zero_lt_one⟩).val = (j ⟨0, Nat.zero_lt_one⟩).val) : i = j :=
  funext fun a => Fin.ext (by match a with | ⟨0, _⟩ => exact h0)

variable (x0 : (⟨S100000x128, .f32⟩ : BufTy).Contents (Elt Ideal)) (x1 : (⟨S2x600000, .i32⟩ : BufTy).Contents (Elt Ideal))
  (x2 : (⟨S256x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S256x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128, .f32⟩ : BufTy).Contents (Elt Ideal)) (x11 : (⟨S128, .f32⟩ : BufTy).Contents (Elt Ideal))

/-! ## The joined rows, read as the piece each coordinate came from -/

/-- The joined edge row at a coordinate below 128 is the first gathered row there. -/
theorem cat_msg_left (j : S600000x256.Idx) (e : Fin 600000) (k' : Fin 128)
    (h0 : (j ⟨0, by decide⟩).val = e.val) (h1 : (j ⟨1, by decide⟩).val = k'.val) :
    val_main_v18 (F := Ideal) x0 x1 j = val_main_v10 (F := Ideal) x0 x1 (ix2 e k') := by
  unfold val_main_v18
  generalize val_main_v10 (F := Ideal) x0 x1 = a
  generalize val_main_v17 (F := Ideal) x0 x1 = b
  exact concatenate_pair_apply_left _ a b _ j rfl (ix2 e k') (fun c => by
    match c with
    | ⟨0, _⟩ => exact h0.symm
    | ⟨1, _⟩ => exact h1.symm)

/-- The joined edge row at a coordinate from 128 on is the second gathered row, 128 less. -/
theorem cat_msg_right (j : S600000x256.Idx) (e : Fin 600000) (k' : Fin 128)
    (h0 : (j ⟨0, by decide⟩).val = e.val) (h1 : (j ⟨1, by decide⟩).val = 128 + k'.val) :
    val_main_v18 (F := Ideal) x0 x1 j = val_main_v17 (F := Ideal) x0 x1 (ix2 e k') := by
  unfold val_main_v18
  generalize val_main_v10 (F := Ideal) x0 x1 = a
  generalize val_main_v17 (F := Ideal) x0 x1 = b
  exact concatenate_pair_apply_right _ a b _ j rfl rfl (ix2 e k')
    (fun c hc => by
      match c with
      | ⟨0, _⟩ => exact h0.symm
      | ⟨1, _⟩ => exact absurd rfl hc)
    (by show k'.val + 128 = (j ⟨1, by decide⟩).val; omega)

/-- The joined node row at a coordinate below 128 is the node's own row there. -/
theorem cat_upd_left (j : S100000x256.Idx) (n : Fin 100000) (k' : Fin 128)
    (h0 : (j ⟨0, by decide⟩).val = n.val) (h1 : (j ⟨1, by decide⟩).val = k'.val) :
    val_main_v31 (F := Ideal) x0 x1 x2 x3 x4 x5 j = x0 (ix2 n k') := by
  unfold val_main_v31
  generalize val_main_v30 (F := Ideal) x0 x1 x2 x3 x4 x5 = b
  exact concatenate_pair_apply_left _ x0 b _ j rfl (ix2 n k') (fun c => by
    match c with
    | ⟨0, _⟩ => exact h0.symm
    | ⟨1, _⟩ => exact h1.symm)

/-- The joined node row at a coordinate from 128 on is the row of summed messages, 128 less. -/
theorem cat_upd_right (j : S100000x256.Idx) (n : Fin 100000) (k' : Fin 128)
    (h0 : (j ⟨0, by decide⟩).val = n.val) (h1 : (j ⟨1, by decide⟩).val = 128 + k'.val) :
    val_main_v31 (F := Ideal) x0 x1 x2 x3 x4 x5 j = val_main_v30 (F := Ideal) x0 x1 x2 x3 x4 x5 (ix2 n k') := by
  unfold val_main_v31
  generalize val_main_v30 (F := Ideal) x0 x1 x2 x3 x4 x5 = b
  exact concatenate_pair_apply_right _ x0 b _ j rfl rfl (ix2 n k')
    (fun c hc => by
      match c with
      | ⟨0, _⟩ => exact h0.symm
      | ⟨1, _⟩ => exact absurd rfl hc)
    (by show k'.val + 128 = (j ⟨1, by decide⟩).val; omega)

/-! ## A vector spread along the rows, and the zero of the rectifier -/

theorem bias_v21 (e : Fin 600000) (k : Fin 128) : val_main_v21 (F := Ideal) x3 (ix2 e k) = x3 (ix1 k) := by
  rw [val_main_v21_apply, val_main_v20_apply]
  exact congrArg x3 (idx1_ext rfl)

theorem bias_v26 (e : Fin 600000) (k : Fin 128) : val_main_v26 (F := Ideal) x5 (ix2 e k) = x5 (ix1 k) := by
  rw [val_main_v26_apply, val_main_v25_apply]
  exact congrArg x5 (idx1_ext rfl)

theorem bias_v34 (n : Fin 100000) (k : Fin 128) : val_main_v34 (F := Ideal) x7 (ix2 n k) = x7 (ix1 k) := by
  rw [val_main_v34_apply, val_main_v33_apply]
  exact congrArg x7 (idx1_ext rfl)

theorem bias_v39 (n : Fin 100000) (k : Fin 128) : val_main_v39 (F := Ideal) x9 (ix2 n k) = x9 (ix1 k) := by
  rw [val_main_v39_apply, val_main_v38_apply]
  exact congrArg x9 (idx1_ext rfl)

theorem scale_v60 (n : Fin 100000) (k : Fin 128) : val_main_v60 (F := Ideal) x10 (ix2 n k) = x10 (ix1 k) := by
  rw [val_main_v60_apply, val_main_v59_apply]
  exact congrArg x10 (idx1_ext rfl)

theorem shift_v63 (n : Fin 100000) (k : Fin 128) : val_main_v63 (F := Ideal) x11 (ix2 n k) = x11 (ix1 k) := by
  rw [val_main_v63_apply, val_main_v62_apply]
  exact congrArg x11 (idx1_ext rfl)

/-- The edge rectifier compares with zero. -/
theorem relu_zero_msg (i : S600000x128.Idx) : val_main_call0_v0 (F := Ideal) i = 0 := by
  rw [val_main_call0_v0_apply, val_main_call0_cst_apply, Ideal.ofBits_def, Ideal.ofBits_zero_f32]

/-- The node rectifier compares with zero. -/
theorem relu_zero_upd (i : S100000x128.Idx) : val_main_call1_v0 (F := Ideal) i = 0 := by
  rw [val_main_call1_v0_apply, val_main_call1_cst_apply, Ideal.ofBits_def, Ideal.ofBits_zero_f32]

/-! ## The edge perceptron -/

/-- The first layer of edge `e` at hidden unit `k`: the two half sums plus the bias. -/
theorem lin1_apply (e : Fin 600000) (k : Fin 128) :
    val_main_v22 (F := Ideal) x0 x1 x2 x3 (ix2 e k)
      = ((∑ k' : Fin 128, val_main_v10 (F := Ideal) x0 x1 (ix2 e k') * x2 (ix2 (⟨k'.val, by omega⟩ : Fin 256) k))
          + (∑ k' : Fin 128, val_main_v17 (F := Ideal) x0 x1 (ix2 e k') * x2 (ix2 (⟨128 + k'.val, by omega⟩ : Fin 256) k)))
        + x3 (ix1 k) := by
  rw [val_main_v22_apply, Ideal.addf_def, val_main_v19_apply, bias_v21 x3 e k, sum_fin256_halves]
  refine congrArg (· + x3 (ix1 k)) (congrArg₂ (· + ·) ?_ ?_)
  · refine Finset.sum_congr rfl fun k' _ => ?_
    exact congrArg₂ (· * ·) (cat_msg_left x0 x1 _ e k' rfl rfl) (congrArg x2 (idx2_ext rfl rfl))
  · refine Finset.sum_congr rfl fun k' _ => ?_
    exact congrArg₂ (· * ·) (cat_msg_right x0 x1 _ e k' rfl rfl) (congrArg x2 (idx2_ext rfl rfl))

/-- The hidden layer of edge `e` at unit `k`: the first layer, rectified. -/
theorem hid_apply (e : Fin 600000) (k : Fin 128) :
    val_main_v23 (F := Ideal) x0 x1 x2 x3 (ix2 e k)
      = max (((∑ k' : Fin 128, val_main_v10 (F := Ideal) x0 x1 (ix2 e k') * x2 (ix2 (⟨k'.val, by omega⟩ : Fin 256) k))
          + (∑ k' : Fin 128, val_main_v17 (F := Ideal) x0 x1 (ix2 e k') * x2 (ix2 (⟨128 + k'.val, by omega⟩ : Fin 256) k)))
        + x3 (ix1 k)) 0 := by
  rw [val_main_v23_apply, Ideal.maximumf_def, relu_zero_msg, lin1_apply]

/-- the message of edge e, entry q: the perceptron of the two gathered rows -/
theorem ref_msg (e : Fin 600000) (q : Fin 128) :
    val_main_v27 (F := Ideal) x0 x1 x2 x3 x4 x5 (ix2 e q)
      = mlpRow (fun k => val_main_v10 (F := Ideal) x0 x1 (ix2 e k)) (fun k => val_main_v17 (F := Ideal) x0 x1 (ix2 e k))
          (fun k' k => x2 (ix2 (⟨k'.val, by omega⟩ : Fin 256) k)) (fun k' k => x2 (ix2 (⟨128 + k'.val, by omega⟩ : Fin 256) k))
          (fun k => x3 (ix1 k)) (fun k j => x4 (ix2 k j)) (fun j => x5 (ix1 j)) q := by
  rw [val_main_v27_apply, Ideal.addf_def, val_main_v24_apply, bias_v26 x5 e q]
  unfold mlpRow
  refine congrArg (· + x5 (ix1 q)) (Finset.sum_congr rfl fun k _ => ?_)
  rw [show lidx_main_v24 (ix2 e q) k = ix2 e k from idx2_ext rfl rfl,
    show ridx_main_v24 (ix2 e q) k = ix2 k q from idx2_ext rfl rfl, hid_apply]

/-! ## The node perceptron -/

/-- The first layer of node `n` at hidden unit `k`: the two half sums plus the bias. -/
theorem upd_lin1_apply (n : Fin 100000) (k : Fin 128) :
    val_main_v35 (F := Ideal) x0 x1 x2 x3 x4 x5 x6 x7 (ix2 n k)
      = ((∑ k' : Fin 128, x0 (ix2 n k') * x6 (ix2 (⟨k'.val, by omega⟩ : Fin 256) k))
          + (∑ k' : Fin 128, val_main_v30 (F := Ideal) x0 x1 x2 x3 x4 x5 (ix2 n k') * x6 (ix2 (⟨128 + k'.val, by omega⟩ : Fin 256) k)))
        + x7 (ix1 k) := by
  rw [val_main_v35_apply, Ideal.addf_def, val_main_v32_apply, bias_v34 x7 n k, sum_fin256_halves]
  refine congrArg (· + x7 (ix1 k)) (congrArg₂ (· + ·) ?_ ?_)
  · refine Finset.sum_congr rfl fun k' _ => ?_
    exact congrArg₂ (· * ·) (cat_upd_left x0 x1 x2 x3 x4 x5 _ n k' rfl rfl) (congrArg x6 (idx2_ext rfl rfl))
  · refine Finset.sum_congr rfl fun k' _ => ?_
    exact congrArg₂ (· * ·) (cat_upd_right x0 x1 x2 x3 x4 x5 _ n k' rfl rfl) (congrArg x6 (idx2_ext rfl rfl))

/-- The hidden layer of node `n` at unit `k`: the first layer, rectified. -/
theorem upd_hid_apply (n : Fin 100000) (k : Fin 128) :
    val_main_v36 (F := Ideal) x0 x1 x2 x3 x4 x5 x6 x7 (ix2 n k)
      = max (((∑ k' : Fin 128, x0 (ix2 n k') * x6 (ix2 (⟨k'.val, by omega⟩ : Fin 256) k))
          + (∑ k' : Fin 128, val_main_v30 (F := Ideal) x0 x1 x2 x3 x4 x5 (ix2 n k') * x6 (ix2 (⟨128 + k'.val, by omega⟩ : Fin 256) k)))
        + x7 (ix1 k)) 0 := by
  rw [val_main_v36_apply, Ideal.maximumf_def, relu_zero_upd, upd_lin1_apply]

/-- The update row of node `n`, entry `k`: the perceptron of the node's own row and its row of summed messages. -/
theorem upd_h_apply (n : Fin 100000) (k : Fin 128) :
    val_main_v40 (F := Ideal) x0 x1 x2 x3 x4 x5 x6 x7 x8 x9 (ix2 n k)
      = mlpRow (fun k' => x0 (ix2 n k')) (fun k' => val_main_v30 (F := Ideal) x0 x1 x2 x3 x4 x5 (ix2 n k'))
          (fun k' k => x6 (ix2 (⟨k'.val, by omega⟩ : Fin 256) k)) (fun k' k => x6 (ix2 (⟨128 + k'.val, by omega⟩ : Fin 256) k))
          (fun k => x7 (ix1 k)) (fun k j => x8 (ix2 k j)) (fun j => x9 (ix1 j)) k := by
  rw [val_main_v40_apply, Ideal.addf_def, val_main_v37_apply, bias_v39 x9 n k]
  unfold mlpRow
  refine congrArg (· + x9 (ix1 k)) (Finset.sum_congr rfl fun k₁ _ => ?_)
  rw [show lidx_main_v37 (ix2 n k) k₁ = ix2 n k₁ from idx2_ext rfl rfl,
    show ridx_main_v37 (ix2 n k) k₁ = ix2 k₁ k from idx2_ext rfl rfl, upd_hid_apply]

/-! ## The layer normalisation of the update row -/

/-- The mean of node `n`'s update row (kept as a one-wide column). -/
theorem ref_mean (n : Fin 100000) (z : Fin 1) :
    val_main_v44 (F := Ideal) x0 x1 x2 x3 x4 x5 x6 x7 x8 x9 (ix2 n z)
      = mean (fun k => val_main_v40 (F := Ideal) x0 x1 x2 x3 x4 x5 x6 x7 x8 x9 (ix2 n k)) := by
  rw [val_main_v44_apply, val_main_v42_apply, val_main_v41_apply, val_main_cst_3_apply,
    val_main_v43_apply, val_main_cst_4_apply]
  simp only [Ideal.hostDivf_def, Ideal.ofBits_def, Ideal.ofBits_zero_f32, zero_add]
  unfold mean
  refine congrArg (Ideal.div · (Ideal.ofBits .f32 0x43000000#32)) (Finset.sum_congr rfl fun k _ => ?_)
  rw [show idx_main_v41 (idx_main_v42 (ix2 n z)) k = ix2 n k from idx2_ext rfl rfl]

/-- The deviation of entry `k` of node `n`'s update row from the row's mean. -/
theorem dev_apply (n : Fin 100000) (k : Fin 128) :
    val_main_v46 (F := Ideal) x0 x1 x2 x3 x4 x5 x6 x7 x8 x9 (ix2 n k)
      = val_main_v40 (F := Ideal) x0 x1 x2 x3 x4 x5 x6 x7 x8 x9 (ix2 n k)
        - mean (fun k => val_main_v40 (F := Ideal) x0 x1 x2 x3 x4 x5 x6 x7 x8 x9 (ix2 n k)) := by
  rw [val_main_v46_apply, Ideal.subf_def, val_main_v45_apply,
    show idx_main_v45 (ix2 n k) = ix2 n (⟨0, Nat.one_pos⟩ : Fin 1) from idx2_ext rfl rfl, ref_mean]

/-- The variance of node `n`'s update row (kept as a one-wide column). -/
theorem ref_var (n : Fin 100000) (z : Fin 1) :
    val_main_v51 (F := Ideal) x0 x1 x2 x3 x4 x5 x6 x7 x8 x9 (ix2 n z)
      = var (fun k => val_main_v40 (F := Ideal) x0 x1 x2 x3 x4 x5 x6 x7 x8 x9 (ix2 n k)) := by
  rw [val_main_v51_apply, val_main_v49_apply, val_main_v48_apply, val_main_cst_5_apply,
    val_main_v50_apply, val_main_cst_6_apply]
  simp only [Ideal.hostDivf_def, Ideal.ofBits_def, Ideal.ofBits_zero_f32, zero_add]
  unfold var
  refine congrArg (Ideal.div · (Ideal.ofBits .f32 0x43000000#32)) (Finset.sum_congr rfl fun k _ => ?_)
  rw [show idx_main_v48 (idx_main_v49 (ix2 n z)) k = ix2 n k from idx2_ext rfl rfl,
    val_main_v47_apply, Ideal.mulf_def, dev_apply]

/-- The result at node `n`, entry `q`, over the update row as the program computes it. -/
theorem ref_out_row (n : Fin 100000) (q : Fin 128) :
    val_main_v65 (F := Ideal) x0 x1 x2 x3 x4 x5 x6 x7 x8 x9 x10 x11 (ix2 n q)
      = lnRow (fun k => val_main_v40 (F := Ideal) x0 x1 x2 x3 x4 x5 x6 x7 x8 x9 (ix2 n k))
          (fun j => x10 (ix1 j)) (fun j => x11 (ix1 j)) (x0 (ix2 n q)) q := by
  rw [val_main_v65_apply, val_main_v64_apply, val_main_v61_apply, val_main_v58_apply, val_main_v53_apply,
    val_main_v52_apply, val_main_v57_apply, val_main_v56_apply, val_main_v55_apply, val_main_v54_apply,
    val_main_cst_7_apply, scale_v60 x10 n q, shift_v63 x11 n q,
    show idx_main_v52 (ix2 n q) = ix2 n (⟨0, Nat.one_pos⟩ : Fin 1) from idx2_ext rfl rfl,
    show idx_main_v57 (ix2 n q) = ix2 n (⟨0, Nat.one_pos⟩ : Fin 1) from idx2_ext rfl rfl,
    ref_mean, ref_var]
  simp only [Ideal.addf_def, Ideal.mulf_def, Ideal.subf_def, Ideal.hostUnary_rsqrt_def, Ideal.ofBits_def]
  rfl

/-- the result at node n, entry q: the layer normalisation of the update perceptron's row, plus the residual -/
theorem ref_out (n : Fin 100000) (q : Fin 128) :
    val_main_v65 (F := Ideal) x0 x1 x2 x3 x4 x5 x6 x7 x8 x9 x10 x11 (ix2 n q)
      = lnRow (fun k => mlpRow (fun k' => x0 (ix2 n k')) (fun k' => val_main_v30 (F := Ideal) x0 x1 x2 x3 x4 x5 (ix2 n k'))
                  (fun k' k => x6 (ix2 (⟨k'.val, by omega⟩ : Fin 256) k)) (fun k' k => x6 (ix2 (⟨128 + k'.val, by omega⟩ : Fin 256) k))
                  (fun k => x7 (ix1 k)) (fun k j => x8 (ix2 k j)) (fun j => x9 (ix1 j)) k)
          (fun j => x10 (ix1 j)) (fun j => x11 (ix1 j)) (x0 (ix2 n q)) q := by
  rw [ref_out_row]
  exact congrArg (fun h => lnRow h (fun j => x10 (ix1 j)) (fun j => x11 (ix1 j)) (x0 (ix2 n q)) q)
    (funext fun k => upd_h_apply x0 x1 x2 x3 x4 x5 x6 x7 x8 x9 n k)

end Cert.ReferenceIdeal.RefRead

end
-- ==== Proof.Bridge.lean ====
/-
  The two-call program's result is the reference's result, entry by entry, at the ideal values.

  The message array the message call leaves is the reference's message array: at an edge and a lane both are the
  perceptron row of the two gathered feature rows, with the first weight's two halves in place of the joined weight.
  So the aggregates agree: one scatter-add, along the same destination indices, of the same array into zeros. And at a
  node and a lane the update call's result and the reference's result are the same layer normalisation of the same
  perceptron row of the node's features and its aggregate, scaled, shifted, plus the node's feature.
-/
import proofs.«145476_j76373108457772_2_alg».proof.Proof.HostValues
import proofs.«145476_j76373108457772_2_alg».proof.Proof.MsgKernel
import proofs.«145476_j76373108457772_2_alg».proof.Proof.UpdKernel
import proofs.«145476_j76373108457772_2_alg».proof.Proof.RefRead

set_option maxRecDepth 16384

noncomputable section

namespace Cert.KernelIdeal.Bridge

open Cert.KernelIdeal Cert.KernelIdeal.Gen Cert.Spec Idealize.ShloMosaic Idealize.ShloMosaic.ValueIdx Idealize.ShloMosaic.TcCoe
open Idealize.SL.Sem Cert.KernelIdeal.HostValues

/-- The normalised row depends on its three rows only entry by entry. -/
theorem lnRow_congr {h h' g g' be be' : Fin 128 → EReal} {x x' : EReal} (q : Fin 128)
    (hh : ∀ k, h k = h' k) (hg : ∀ j, g j = g' j) (hbe : ∀ j, be j = be' j) (hx : x = x') :
    lnRow h g be x q = lnRow h' g' be' x' q := by
  obtain rfl : h = h' := funext hh
  obtain rfl : g = g' := funext hg
  obtain rfl : be = be' := funext hbe
  subst hx
  rfl

variable (m : (ℓ : Loc nD τ sig) → Buf (Elt Ideal) ℓ) (ρ : Dev nD → PrngReg) (c : Dev nD)

/-- The message array after the message call is the reference's message array. -/
theorem msg_eq :
    ((dat0 (V1 m ρ) c).arrAt 7 cfg0.N : S600000x128.Idx → EReal)
      = Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Msg.final0]
  funext i
  obtain ⟨e, q, rfl⟩ : ∃ (e : Fin 600000) (q : Fin 128), i = ix2 e q := ⟨i 0, i 1, eq_ix2 i⟩
  rw [Cert.ReferenceIdeal.RefRead.ref_msg]
  show Msg.msgEntry (V1 m ρ) c e q = _
  unfold Msg.msgEntry
  exact Msg.mlpRow_congr (fun k => congrFun (V1_v11 m ρ c) (ix2 e k)) (fun k => congrFun (V1_v18 m ρ c) (ix2 e k))
    (V1_v20_apply m ρ c) (V1_v22_apply m ρ c) (V1_v24_apply m ρ c) (fun k j => congrFun (V1_v23 m ρ c) (ix2 k j))
    (V1_v25_apply m ρ c) rfl

/-- The aggregate the update call reads is the reference's aggregate. -/
theorem agg_eq :
    (V3 m ρ c main_v30 : S100000x128.Idx → EReal)
      = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (V3_v30 m ρ c _ (msg_eq m ρ c)).trans (by unfold Cert.ReferenceIdeal.Read.val_main_v30; rfl)

/-- The result array after the run is the reference's result. -/
theorem result_eq :
    (W4 m ρ c (Proc.devRef .tc main_v40) : S100000x128.Idx → EReal)
      = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h : W4 m ρ c (Proc.devRef .tc main_v40) = (dat1 (V3 m ρ) c).arrAt 9 cfg1.N := W4_arr m ρ c 9
  rw [h, Upd.final1]
  funext i
  obtain ⟨n, q, rfl⟩ : ∃ (n : Fin 100000) (q : Fin 128), i = ix2 n q := ⟨i 0, i 1, eq_ix2 i⟩
  rw [Cert.ReferenceIdeal.RefRead.ref_out]
  show Upd.updEntry (V3 m ρ) c n q = _
  unfold Upd.updEntry
  exact lnRow_congr q
    (fun k => Msg.mlpRow_congr (fun k' => congrFun (V3_arg0 m ρ c) (ix2 n k')) (fun k' => congrFun (agg_eq m ρ c) (ix2 n k'))
      (V3_v32_apply m ρ c) (V3_v34_apply m ρ c) (V3_v36_apply m ρ c) (fun k j => congrFun (V3_v35 m ρ c) (ix2 k j))
      (V3_v37_apply m ρ c) rfl)
    (V3_v38_apply m ρ c) (V3_v39_apply m ρ c) (congrFun (V3_arg0 m ρ c) (ix2 n q))

end Cert.KernelIdeal.Bridge

end
-- ==== Proof.lean ====
/-
  The certificate of one graph-decoder layer: the Pallas program (a message perceptron over the edges, a scatter-add
  to the destination nodes, an update perceptron with layer normalisation and a residual over the nodes) against its
  jnp reference, equal entry by entry over the extended reals.

  The three frames: the two printed kernels' runs are their generated frame certificates; the reference's run is its
  generated run with the result dropped. The idealization rewrote nothing, so `preserves` is trivial. For `algebraic`
  the common result is the reference's own result function of the argument arrays: the reference's run ends at it by
  its generated run, and the kernel's run ends at the last boundary's contents of the result buffer, which is that
  function (`Bridge.result_eq`: the message arrays agree edge by edge, so the aggregates are one scatter-add of one
  array, and the node rows agree lane by lane).
-/
import proofs.«145476_j76373108457772_2_alg».proof.Defs
import proofs.«145476_j76373108457772_2_alg».proof.Proof.Gen.Kernel
import proofs.«145476_j76373108457772_2_alg».proof.Proof.Gen.Kernel.Frame
import proofs.«145476_j76373108457772_2_alg».proof.Proof.Gen.KernelIdeal
import proofs.«145476_j76373108457772_2_alg».proof.Proof.Gen.KernelIdeal.Frame
import proofs.«145476_j76373108457772_2_alg».proof.Proof.Gen.ReferenceIdeal
import proofs.«145476_j76373108457772_2_alg».proof.Proof.Gen.ReferenceIdeal.Run
import proofs.«145476_j76373108457772_2_alg».proof.Proof.Gen.ReferenceIdeal.Read
import proofs.«145476_j76373108457772_2_alg».proof.Proof.Gen.Pre_finite_inputs
import proofs.«145476_j76373108457772_2_alg».proof.Proof.KernelRun
import proofs.«145476_j76373108457772_2_alg».proof.Proof.Bridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the result array at the reference's result function of the (agreeing) argument arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.KernelIdeal.Bridge.result_eq m ρ c), (h c).2⟩)
      (Cert.KernelIdeal.RunValue.run_value m ρ)
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7, e8, e9, e10, e11⟩ := hagree c
    rw [Cert.ReferenceIdeal.Read.val_main_v65_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
